-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x524288 : Shape := ⟨2, ![2, 524288]⟩
abbrev S512x64 : Shape := ⟨2, ![512, 64]⟩
abbrev S64 : Shape := ⟨1, ![64]⟩
abbrev S64x64 : Shape := ⟨2, ![64, 64]⟩
abbrev S64x8192 : Shape := ⟨2, ![64, 8192]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8192 : S_.BroadcastsInDim S64x8192 (![] : Fin 0 → Fin S64x8192.rank)
  reducesTo_S64x8192_S_d0_1 : S64x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg5 : FVec F S64 .f32) (main_arg6 : FVec F S64x8192 .f32) (main_arg7 : FVec F S8192 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8192 .f32 := Host.absf main_arg6
  let main_cst_8 : FVec F S_ .f32 := constant S_ .f32 0x7F800000#32
  let main_v25 : FVec F S64x8192 .f32 := broadcastInDim S64x8192 ![] bcast_S_S64x8192 main_cst_8
  let main_v26 : IVec S64x8192 1 := cmpf .olt main_v24 main_v25
  let main_c_9 : IVec S_ 1 := constantI S_ 1 1#1
  let main_v27 : IVec S_ 1 := (fun x v => Host.reduce IntOp.andi x v reducesTo_S64x8192_S_d0_1 h_S_) main_v26 main_c_9
  let main_v28 : IVec S_ 1 := andi main_v23 main_v27
  let main_v29 : FVec F S8192 .f32 := Host.absf main_arg7
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x512 .f32) (main_arg1 : IVec S2x524288 32) (main_arg2 : FVec F S512x64 .f32) (main_arg3 : FVec F S64 .f32) (main_arg4 : FVec F S64x64 .f32) (main_arg5 : FVec F S64 .f32) (main_arg6 : FVec F S64x8192 .f32) (main_arg7 : FVec F S8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S8192x512 : Shape := ⟨2, ![8192, 512]⟩
abbrev S2x524288 : Shape := ⟨2, ![2, 524288]⟩
abbrev S512x64 : Shape := ⟨2, ![512, 64]⟩
abbrev S64 : Shape := ⟨1, ![64]⟩
abbrev S64x64 : Shape := ⟨2, ![64, 64]⟩
abbrev S64x8192 : Shape := ⟨2, ![64, 8192]⟩
abbrev S8192 : Shape := ⟨1, ![8192]⟩
abbrev S1x524288 : Shape := ⟨2, ![1, 524288]⟩
abbrev S524288 : Shape := ⟨1, ![524288]⟩
abbrev S532480 : Shape := ⟨1, ![532480]⟩
abbrev S8192x64 : Shape := ⟨2, ![8192, 64]⟩
abbrev S_ : Shape := ⟨0, ![]⟩
abbrev S532480x1 : Shape := ⟨2, ![532480, 1]⟩
abbrev S532480x64 : Shape := ⟨2, ![532480, 64]⟩
abbrev S1x64 : Shape := ⟨2, ![1, 64]⟩
abbrev S1x8192 : Shape := ⟨2, ![1, 8192]⟩
abbrev S8192x8192 : Shape := ⟨2, ![8192, 8192]⟩
abbrev S1024x64 : Shape := ⟨2, ![1024, 64]⟩
abbrev S64x1024 : Shape := ⟨2, ![64, 1024]⟩
abbrev S1x1024 : Shape := ⟨2, ![1, 1024]⟩
abbrev S1024x1024 : Shape := ⟨2, ![1024, 1024]⟩

abbrev nBuf : Space → Nat
  | .hbm => 133
  | .vmem => 14
  | .smem => 0
  | _ => 0

abbrev hbmTy0_0 (i : Nat) : BufTy := match i % 128 with
  | 0 => ⟨S8192x512, .f32⟩
  | 1 => ⟨S2x524288, .i32⟩
  | 2 => ⟨S512x64, .f32⟩
  | 3 => ⟨S64, .f32⟩
  | 4 => ⟨S64x64, .f32⟩
  | 5 => ⟨S64, .f32⟩
  | 6 => ⟨S64x8192, .f32⟩
  | 7 => ⟨S8192, .f32⟩
  | 8 => ⟨S8192, .i32⟩
  | 9 => ⟨S1x524288, .i32⟩
  | 10 => ⟨S524288, .i32⟩
  | 11 => ⟨S532480, .i32⟩
  | 12 => ⟨S1x524288, .i32⟩
  | 13 => ⟨S524288, .i32⟩
  | 14 => ⟨S532480, .i32⟩
  | 15 => ⟨S8192x64, .f32⟩
  | 16 => ⟨S_, .f32⟩
  | 17 => ⟨S532480, .f32⟩
  | 18 => ⟨S_, .f32⟩
  | 19 => ⟨S8192, .f32⟩
  | 20 => ⟨S532480x1, .i32⟩
  | 21 => ⟨S8192, .f32⟩
  | 22 => ⟨S_, .f32⟩
  | 23 => ⟨S8192, .f32⟩
  | 24 => ⟨S8192, .i1⟩
  | 25 => ⟨S_, .f32⟩
  | 26 => ⟨S8192, .f32⟩
  | 27 => ⟨S8192, .f32⟩
  | 28 => ⟨S_, .f32⟩
  | 29 => ⟨S_, .f32⟩
  | 30 => ⟨S8192, .f32⟩
  | 31 => ⟨S8192, .f32⟩
  | 32 => ⟨S_, .i32⟩
  | 33 => ⟨S532480, .i32⟩
  | 34 => ⟨S532480, .i1⟩
  | 35 => ⟨S_, .i32⟩
  | 36 => ⟨S532480, .i32⟩
  | 37 => ⟨S532480, .i32⟩
  | 38 => ⟨S532480, .i32⟩
  | 39 => ⟨S532480x1, .i32⟩
  | 40 => ⟨S532480, .f32⟩
  | 41 => ⟨S_, .i32⟩
  | 42 => ⟨S532480, .i32⟩
  | 43 => ⟨S532480, .i1⟩
  | 44 => ⟨S_, .i32⟩
  | 45 => ⟨S532480, .i32⟩
  | 46 => ⟨S532480, .i32⟩
  | 47 => ⟨S532480, .i32⟩
  | 48 => ⟨S532480x1, .i32⟩
  | 49 => ⟨S532480, .f32⟩
  | 50 => ⟨S532480, .f32⟩
  | 51 => ⟨S_, .i32⟩
  | 52 => ⟨S532480, .i32⟩
  | 53 => ⟨S532480, .i1⟩
  | 54 => ⟨S_, .i32⟩
  | 55 => ⟨S532480, .i32⟩
  | 56 => ⟨S532480, .i32⟩
  | 57 => ⟨S532480, .i32⟩
  | 58 => ⟨S532480x1, .i32⟩
  | 59 => ⟨S532480x64, .f32⟩
  | 60 => ⟨S532480x1, .f32⟩
  | 61 => ⟨S532480x64, .f32⟩
  | 62 => ⟨S532480x64, .f32⟩
  | 63 => ⟨S_, .f32⟩
  | 64 => ⟨S8192x64, .f32⟩
  | 65 => ⟨S532480x1, .i32⟩
  | 66 => ⟨S8192x64, .f32⟩
  | 67 => ⟨S1x64, .f32⟩
  | 68 => ⟨S8192x64, .f32⟩
  | 69 => ⟨S8192x64, .f32⟩
  | 70 => ⟨S_, .f32⟩
  | 71 => ⟨S8192x64, .f32⟩
  | 72 => ⟨S8192x64, .f32⟩
  | 73 => ⟨S8192x64, .f32⟩
  | 74 => ⟨S_, .f32⟩
  | 75 => ⟨S532480, .f32⟩
  | 76 => ⟨S_, .f32⟩
  | 77 => ⟨S8192, .f32⟩
  | 78 => ⟨S532480x1, .i32⟩
  | 79 => ⟨S8192, .f32⟩
  | 80 => ⟨S_, .f32⟩
  | 81 => ⟨S8192, .f32⟩
  | 82 => ⟨S8192, .i1⟩
  | 83 => ⟨S_, .f32⟩
  | 84 => ⟨S8192, .f32⟩
  | 85 => ⟨S8192, .f32⟩
  | 86 => ⟨S_, .f32⟩
  | 87 => ⟨S_, .f32⟩
  | 88 => ⟨S8192, .f32⟩
  | 89 => ⟨S8192, .f32⟩
  | 90 => ⟨S_, .i32⟩
  | 91 => ⟨S532480, .i32⟩
  | 92 => ⟨S532480, .i1⟩
  | 93 => ⟨S_, .i32⟩
  | 94 => ⟨S532480, .i32⟩
  | 95 => ⟨S532480, .i32⟩
  | 96 => ⟨S532480, .i32⟩
  | 97 => ⟨S532480x1, .i32⟩
  | 98 => ⟨S532480, .f32⟩
  | 99 => ⟨S_, .i32⟩
  | 100 => ⟨S532480, .i32⟩
  | 101 => ⟨S532480, .i1⟩
  | 102 => ⟨S_, .i32⟩
  | 103 => ⟨S532480, .i32⟩
  | 104 => ⟨S532480, .i32⟩
  | 105 => ⟨S532480, .i32⟩
  | 106 => ⟨S532480x1, .i32⟩
  | 107 => ⟨S532480, .f32⟩
  | 108 => ⟨S532480, .f32⟩
  | 109 => ⟨S_, .i32⟩
  | 110 => ⟨S532480, .i32⟩
  | 111 => ⟨S532480, .i1⟩
  | 112 => ⟨S_, .i32⟩
  | 113 => ⟨S532480, .i32⟩
  | 114 => ⟨S532480, .i32⟩
  | 115 => ⟨S532480, .i32⟩
  | 116 => ⟨S532480x1, .i32⟩
  | 117 => ⟨S532480x64, .f32⟩
  | 118 => ⟨S532480x1, .f32⟩
  | 119 => ⟨S532480x64, .f32⟩
  | 120 => ⟨S532480x64, .f32⟩
  | 121 => ⟨S_, .f32⟩
  | 122 => ⟨S8192x64, .f32⟩
  | 123 => ⟨S532480x1, .i32⟩
  | 124 => ⟨S8192x64, .f32⟩
  | 125 => ⟨S1x64, .f32⟩
  | 126 => ⟨S8192x64, .f32⟩
  | 127 => ⟨S8192x64, .f32⟩
  | _ => ⟨S8192x512, .f32⟩

abbrev hbmTy0_1 (i : Nat) : BufTy := match i % 128 with
  | 0 => ⟨S_, .f32⟩
  | 1 => ⟨S8192x64, .f32⟩
  | 2 => ⟨S8192x64, .f32⟩
  | 3 => ⟨S1x8192, .f32⟩
  | 4 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_c_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_c_20 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_21 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call3_cst : Ref sig .tc := ⟨.hbm, 128, rfl⟩
abbrev main_call3_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S2x524288_S1x524288_0_0 : S2x524288.Slices ![0, 0] S1x524288
  shapeCasts_S1x524288_S524288 : S1x524288.ShapeCasts S524288
  concatenates_S524288_S8192_S532480_d0 : Shape.Concatenates [S524288, S8192] S532480 0
  slices_S2x524288_S1x524288_1_0 : S2x524288.Slices ![1, 0] S1x524288
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  bcast_S532480x1_S532480x64_0_1 : S532480x1.BroadcastsInDim S532480x64 (![0, 1] : Fin 2 → Fin S532480x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S8192_S1x8192 : S8192.ShapeCasts S1x8192
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  transposes_S1024x1024_p1_0_S1024x1024 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  dot_S8192x512_S512x64_S8192x64_1_0_0_1_n_n_wf : DotDims.WF S8192x512 S512x64 S8192x64 [1] [0] [0] [1] [] []
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  gather_S8192x64_S532480x1_S532480x64_1_0_n_n_0_1_164_wf : GatherDims.WF S8192x64 S532480x1 S532480x64 [1] [0] [] [0] [] 1 ![1, 64]
  scatter_S8192x64_S532480x1_S532480x64_1_0_0_1_wf : ScatterDims.WF S8192x64 S532480x1 S532480x64 [1] [0] [0] 1
  dot_S8192x64_S64x64_S8192x64_1_0_0_1_n_n_wf : DotDims.WF S8192x64 S64x64 S8192x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x8192.size a
  hwx0_2 : ∀ i : grid0.Coords, EltTy.bits .f32 = 32 ∨ (Rect.block (s := S64x8192) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x8192.size a
  hwx0_3 : ∀ i : grid0.Coords, EltTy.bits .f32 = 32 ∨ (Rect.block (s := S64x8192) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x8192.size a
  hwx0_6 : ∀ i : grid0.Coords, EltTy.bits .f32 = 32 ∨ (Rect.block (s := S8192x8192) S1024x1024.size (cc0_transform_6 i) (hinb0_6 i)).WholeWords (EltTy.packing .f32)

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def gather_S8192x64_S532480x1_S532480x64_1_0_n_n_0_1_164 : GatherDims S8192x64 S532480x1 S532480x64 where
  offsetDims := [1]
  collapsedSliceDims := [0]
  operandBatchingDims := []
  startIndicesBatchingDims := []
  startIndexMap := [0]
  indexVectorDim := 1
  sliceSizes := ![1, 64]
  wf := gather_S8192x64_S532480x1_S532480x64_1_0_n_n_0_1_164_wf
def scatter_S8192x64_S532480x1_S532480x64_1_0_0_1 : ScatterDims S8192x64 S532480x1 S532480x64 where
  updateWindowDims := [1]
  insertedWindowDims := [0]
  scatterDimsToOperandDims := [0]
  indexVectorDim := 1
  wf := scatter_S8192x64_S532480x1_S532480x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v90) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v91) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v91) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v92) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S2x524288 : Shape := ⟨2, ![2, 524288]⟩
abbrev S512x64 : Shape := ⟨2, ![512, 64]⟩
abbrev S64 : Shape := ⟨1, ![64]⟩
abbrev S64x64 : Shape := ⟨2, ![64, 64]⟩
abbrev S64x8192 : Shape := ⟨2, ![64, 8192]⟩
abbrev S8192 : Shape := ⟨1, ![8192]⟩
abbrev S1x524288 : Shape := ⟨2, ![1, 524288]⟩
abbrev S524288 : Shape := ⟨1, ![524288]⟩
abbrev S532480 : Shape := ⟨1, ![532480]⟩
abbrev S8192x64 : Shape := ⟨2, ![8192, 64]⟩
abbrev S_ : Shape := ⟨0, ![]⟩
abbrev S532480x1 : Shape := ⟨2, ![532480, 1]⟩
abbrev S532480x64 : Shape := ⟨2, ![532480, 64]⟩
abbrev S1x64 : Shape := ⟨2, ![1, 64]⟩
abbrev S8192x8192 : Shape := ⟨2, ![8192, 8192]⟩
abbrev S1x8192 : Shape := ⟨2, ![1, 8192]⟩

abbrev nBuf : Space → Nat
  | .hbm => 141
  | .vmem => 0
  | .smem => 0
  | _ => 0

abbrev hbmTy0_0 (i : Nat) : BufTy := match i % 128 with
  | 0 => ⟨S8192x512, .f32⟩
  | 1 => ⟨S2x524288, .i32⟩
  | 2 => ⟨S512x64, .f32⟩
  | 3 => ⟨S64, .f32⟩
  | 4 => ⟨S64x64, .f32⟩
  | 5 => ⟨S64, .f32⟩
  | 6 => ⟨S64x8192, .f32⟩
  | 7 => ⟨S8192, .f32⟩
  | 8 => ⟨S8192, .i32⟩
  | 9 => ⟨S1x524288, .i32⟩
  | 10 => ⟨S524288, .i32⟩
  | 11 => ⟨S532480, .i32⟩
  | 12 => ⟨S1x524288, .i32⟩
  | 13 => ⟨S524288, .i32⟩
  | 14 => ⟨S532480, .i32⟩
  | 15 => ⟨S8192x64, .f32⟩
  | 16 => ⟨S_, .f32⟩
  | 17 => ⟨S532480, .f32⟩
  | 18 => ⟨S_, .f32⟩
  | 19 => ⟨S8192, .f32⟩
  | 20 => ⟨S532480x1, .i32⟩
  | 21 => ⟨S8192, .f32⟩
  | 22 => ⟨S_, .f32⟩
  | 23 => ⟨S8192, .f32⟩
  | 24 => ⟨S8192, .i1⟩
  | 25 => ⟨S_, .f32⟩
  | 26 => ⟨S8192, .f32⟩
  | 27 => ⟨S8192, .f32⟩
  | 28 => ⟨S_, .f32⟩
  | 29 => ⟨S_, .f32⟩
  | 30 => ⟨S8192, .f32⟩
  | 31 => ⟨S8192, .f32⟩
  | 32 => ⟨S_, .i32⟩
  | 33 => ⟨S532480, .i32⟩
  | 34 => ⟨S532480, .i1⟩
  | 35 => ⟨S_, .i32⟩
  | 36 => ⟨S532480, .i32⟩
  | 37 => ⟨S532480, .i32⟩
  | 38 => ⟨S532480, .i32⟩
  | 39 => ⟨S532480x1, .i32⟩
  | 40 => ⟨S532480, .f32⟩
  | 41 => ⟨S_, .i32⟩
  | 42 => ⟨S532480, .i32⟩
  | 43 => ⟨S532480, .i1⟩
  | 44 => ⟨S_, .i32⟩
  | 45 => ⟨S532480, .i32⟩
  | 46 => ⟨S532480, .i32⟩
  | 47 => ⟨S532480, .i32⟩
  | 48 => ⟨S532480x1, .i32⟩
  | 49 => ⟨S532480, .f32⟩
  | 50 => ⟨S532480, .f32⟩
  | 51 => ⟨S_, .i32⟩
  | 52 => ⟨S532480, .i32⟩
  | 53 => ⟨S532480, .i1⟩
  | 54 => ⟨S_, .i32⟩
  | 55 => ⟨S532480, .i32⟩
  | 56 => ⟨S532480, .i32⟩
  | 57 => ⟨S532480, .i32⟩
  | 58 => ⟨S532480x1, .i32⟩
  | 59 => ⟨S532480x64, .f32⟩
  | 60 => ⟨S532480x1, .f32⟩
  | 61 => ⟨S532480x64, .f32⟩
  | 62 => ⟨S532480x64, .f32⟩
  | 63 => ⟨S_, .f32⟩
  | 64 => ⟨S8192x64, .f32⟩
  | 65 => ⟨S532480x1, .i32⟩
  | 66 => ⟨S8192x64, .f32⟩
  | 67 => ⟨S1x64, .f32⟩
  | 68 => ⟨S8192x64, .f32⟩
  | 69 => ⟨S8192x64, .f32⟩
  | 70 => ⟨S_, .f32⟩
  | 71 => ⟨S8192x64, .f32⟩
  | 72 => ⟨S8192x64, .f32⟩
  | 73 => ⟨S8192x64, .f32⟩
  | 74 => ⟨S_, .f32⟩
  | 75 => ⟨S532480, .f32⟩
  | 76 => ⟨S_, .f32⟩
  | 77 => ⟨S8192, .f32⟩
  | 78 => ⟨S532480x1, .i32⟩
  | 79 => ⟨S8192, .f32⟩
  | 80 => ⟨S_, .f32⟩
  | 81 => ⟨S8192, .f32⟩
  | 82 => ⟨S8192, .i1⟩
  | 83 => ⟨S_, .f32⟩
  | 84 => ⟨S8192, .f32⟩
  | 85 => ⟨S8192, .f32⟩
  | 86 => ⟨S_, .f32⟩
  | 87 => ⟨S_, .f32⟩
  | 88 => ⟨S8192, .f32⟩
  | 89 => ⟨S8192, .f32⟩
  | 90 => ⟨S_, .i32⟩
  | 91 => ⟨S532480, .i32⟩
  | 92 => ⟨S532480, .i1⟩
  | 93 => ⟨S_, .i32⟩
  | 94 => ⟨S532480, .i32⟩
  | 95 => ⟨S532480, .i32⟩
  | 96 => ⟨S532480, .i32⟩
  | 97 => ⟨S532480x1, .i32⟩
  | 98 => ⟨S532480, .f32⟩
  | 99 => ⟨S_, .i32⟩
  | 100 => ⟨S532480, .i32⟩
  | 101 => ⟨S532480, .i1⟩
  | 102 => ⟨S_, .i32⟩
  | 103 => ⟨S532480, .i32⟩
  | 104 => ⟨S532480, .i32⟩
  | 105 => ⟨S532480, .i32⟩
  | 106 => ⟨S532480x1, .i32⟩
  | 107 => ⟨S532480, .f32⟩
  | 108 => ⟨S532480, .f32⟩
  | 109 => ⟨S_, .i32⟩
  | 110 => ⟨S532480, .i32⟩
  | 111 => ⟨S532480, .i1⟩
  | 112 => ⟨S_, .i32⟩
  | 113 => ⟨S532480, .i32⟩
  | 114 => ⟨S532480, .i32⟩
  | 115 => ⟨S532480, .i32⟩
  | 116 => ⟨S532480x1, .i32⟩
  | 117 => ⟨S532480x64, .f32⟩
  | 118 => ⟨S532480x1, .f32⟩
  | 119 => ⟨S532480x64, .f32⟩
  | 120 => ⟨S532480x64, .f32⟩
  | 121 => ⟨S_, .f32⟩
  | 122 => ⟨S8192x64, .f32⟩
  | 123 => ⟨S532480x1, .i32⟩
  | 124 => ⟨S8192x64, .f32⟩
  | 125 => ⟨S1x64, .f32⟩
  | 126 => ⟨S8192x64, .f32⟩
  | 127 => ⟨S8192x64, .f32⟩
  | _ => ⟨S8192x512, .f32⟩

abbrev hbmTy0_1 (i : Nat) : BufTy := match i % 128 with
  | 0 => ⟨S_, .f32⟩
  | 1 => ⟨S8192x64, .f32⟩
  | 2 => ⟨S8192x64, .f32⟩
  | 3 => ⟨S8192x8192, .f32⟩
  | 4 => ⟨S1x8192, .f32⟩
  | 5 => ⟨S8192x8192, .f32⟩
  | 6 => ⟨S8192x8192, .f32⟩
  | 7 => ⟨S8192x8192, .f32⟩
  | 8 => ⟨S8192x8192, .f32⟩
  | 9 => ⟨S8192x8192, .f32⟩
  | 10 => ⟨S_, .f32⟩
  | 11 => ⟨S8192x8192, .f32⟩
  | 12 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_c_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_c_20 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_21 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call3_cst : Ref sig .tc := ⟨.hbm, 128, rfl⟩
abbrev main_call3_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_22 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S8192_S532480_d0 : Shape.Concatenates [S524288, S8192] S532480 0
  slices_S2x524288_S1x524288_1_0 : S2x524288.Slices ![1, 0] S1x524288
  bcast_S_S532480 : S_.BroadcastsInDim S532480 (![] : Fin 0 → Fin S532480.rank)
  bcast_S_S8192 : S_.BroadcastsInDim S8192 (![] : Fin 0 → Fin S8192.rank)
  bcast_S532480_S532480x1_0 : S532480.BroadcastsInDim S532480x1 (![0] : Fin 1 → Fin S532480x1.rank)
  bcast_S532480x1_S532480x64_0_1 : S532480x1.BroadcastsInDim S532480x64 (![0, 1] : Fin 2 → Fin S532480x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  bcast_S_S8192x8192 : S_.BroadcastsInDim S8192x8192 (![] : Fin 0 → Fin S8192x8192.rank)
  dot_S8192x512_S512x64_S8192x64_1_0_0_1_n_n_wf : DotDims.WF S8192x512 S512x64 S8192x64 [1] [0] [0] [1] [] []
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  gather_S8192x64_S532480x1_S532480x64_1_0_n_n_0_1_164_wf : GatherDims.WF S8192x64 S532480x1 S532480x64 [1] [0] [] [0] [] 1 ![1, 64]
  scatter_S8192x64_S532480x1_S532480x64_1_0_0_1_wf : ScatterDims.WF S8192x64 S532480x1 S532480x64 [1] [0] [0] 1
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def gather_S8192x64_S532480x1_S532480x64_1_0_n_n_0_1_164 : GatherDims S8192x64 S532480x1 S532480x64 where
  offsetDims := [1]
  collapsedSliceDims := [0]
  operandBatchingDims := []
  startIndicesBatchingDims := []
  startIndexMap := [0]
  indexVectorDim := 1
  sliceSizes := ![1, 64]
  wf := gather_S8192x64_S532480x1_S532480x64_1_0_n_n_0_1_164_wf
def scatter_S8192x64_S532480x1_S532480x64_1_0_0_1 : ScatterDims S8192x64 S532480x1 S532480x64 where
  updateWindowDims := [1]
  insertedWindowDims := [0]
  scatterDimsToOperandDims := [0]
  indexVectorDim := 1
  wf := scatter_S8192x64_S532480x1_S532480x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.FrameK.lean ====
/-
  The frame of the tiled symmetrised-activation program, at any float instance.

  The program computes node features on the host and then launches one kernel over an 8 × 8 grid of
  1024 × 1024 output tiles. The kernel reads SIX input windows over only THREE arrays: the feature
  array twice (its row block `i` and its row block `j`), the weight array twice (column blocks `j`
  and `i`) and the bias row twice (blocks `j` and `i`); the seventh window is the output tile.
  Because two windows read one array, each such array's ownership is dealt to its two windows as the
  two halves of the full share; reading needs no more, and the one array that is written (the
  output) is behind a window of its own at the full share.

  What is shown here: at every grid point the body, handed its six input tiles and the output tile's
  buffer at any contents, loads the six tiles, stores ONE value covering the whole output tile, and
  returns the inputs as it found them; so every weakly fair execution of the program terminates
  without a fault, the output array ends as the tiles written back point by point, and every other
  array — the eight arguments among them — ends as the kernel found it, which for the arguments is
  as launched, no host operation writing an argument.
-/
import proofs.«174856_j7146825580734_1_alg».proof.Proof.Gen.Kernel.Launch
import proofs.«174856_j7146825580734_1_alg».proof.Proof.Gen.Kernel.Skeleton
import proofs.«174856_j7146825580734_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel's launch -/

/-- What each buffer of a core holds when the kernel is launched: the launch memory after every host
    operation that precedes the launch, in program order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is its host operations, stretch by stretch, and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

/-! ## The tiles -/

/-- Window `w`'s tile at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- An input window's current buffer holds its tile at every point, fetched there or not: where it is
   not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every windowed array at what the write-backs leave and every other
    buffer as the kernel found it: the eight arguments end as launched. The weight array (argument 6)
    is behind input windows, which are never written; the other seven are behind no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) ⟨m, fun _ => 0, ρ⟩ (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 2).trans (((dats 0 c).arrAt_in 2 rfl _).trans ((hA c 2).trans (V_main_arg6 m c))),
      ((h c).2 main_arg7 (Pipeline.mem_restRefs_of main_arg7 (by decide) (by decide))).trans (V_main_arg7 m c)⟩) h

/-! ## The body's accesses -/

abbrev rA : Rect S1024x64 := Rect.unit (s := S1024x64) ![0, 0] S1024x64.size inb_S1024x64_S1024x64_0_0
abbrev rB : Rect S64x1024 := Rect.unit (s := S64x1024) ![0, 0] S64x1024.size inb_S64x1024_S64x1024_0_0
abbrev rC : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

/-- The output tile's buffer after the body, from the six input tiles: the one store, of the body's
    arithmetic at the six loads, through the whole tile. -/
def out0_6 (x0 x1 : Vec F S1024x64 .f32) (x2 x3 : Vec F S64x1024 .f32) (x4 x5 : Vec F S1x1024 .f32) : Vec F S1024x1024 .f32 :=
  View.canon [⟨rO, k0_pay1 (View.ld x0 rA) (View.ld x1 rA) (View.ld x2 rB) (View.ld x3 rB) (View.ld x4 rC) (View.ld x5 rC)⟩]

/-- The one store covers the tile. -/
theorem cover0_6 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 4000000 in
/-- On whole buffers, the six inputs' at contents `x0 … x5` and the output's at anything, the body runs
    to its return holding the inputs as they were and the output at `out0_6` of them. -/
theorem sound_kernel (c : Dev nD) (E : Set ℕ) (i : grid0.Coords)
    (arg2 : Memref sig .tc .vmem S1024x64 .f32) (harg2 : arg2.IsWhole) (arg3 : Memref sig .tc .vmem S1024x64 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1024x1024 .f32) (harg8 : arg8.IsWhole)
    (x0 x1 : Vec F S1024x64 .f32) (x2 x3 : Vec F S64x1024 .f32) (x4 x5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__tanh_sym_kernel i arg2 harg2 arg3 harg3 arg4 harg4 arg5 harg5 arg6 harg6 arg7 harg7 arg8 harg8) K := by
  simp only [cc0__tanh_sym_kernel_eq_skeleton]; unfold cc0__tanh_sym_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data -/

/-- The share of its array an input window holds: two windows read each of the three input arrays,
    and take the two halves of the full share. -/
def qOf : Fin cfg0.W → PosShare TreeShare
  | ⟨0, _⟩ => fullShare.left
  | ⟨1, _⟩ => fullShare.right
  | ⟨2, _⟩ => fullShare.left
  | ⟨3, _⟩ => fullShare.right
  | ⟨4, _⟩ => fullShare.left
  | ⟨5, _⟩ => fullShare.right
  | _ => fullShare

/-- On core `c`: the arrays as the kernel finds them; after the body at point `t` each input's buffer at
    its tile and the output's at `out0_6` of the six tiles; nothing carried between points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := iprop(emp)
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their tiles, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunK.lean ====
/-
  The launch of the tiled symmetrised-activation kernel, and the program's frame.

  The kernel's seven windows stand on four arrays: the features (windows 0 and 1), the weights
  (windows 2 and 3), the bias row (windows 4 and 5) and the output (window 6). At the launch each of
  the four arrays is held whole at the full share; the three that are read twice are each split into
  the two halves of that share, one per window. With the body obligation at every grid point, the
  launch rule for windows that share arrays gives the run: every weakly fair execution terminates,
  every windowed array ends at what the write-backs leave, every other buffer as the kernel found it.
-/
import proofs.«174856_j7146825580734_1_alg».proof.Proof.FrameK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's copy of the rounds algebra. -/
abbrev EP : Emb (UR sig nD τ) (MT nD τ sig Unit (Elt F) ℕ (UR sig nD τ) ℕ) := emb₁

/-- The four arrays behind the seven windows. -/
theorem arrRefs_eq : Finset.univ.image (Pipeline.arrRef spec0) = [main_v90, main_arg6, main_v91, main_v92].toFinset := by decide

/-- The four arrays' points-tos, one by one. -/
theorem arrBufs_eq (c : Dev nD) : (Pipeline.arrBufs spec0 c (V m c) : sProp 𝕄)
    = iprop((((c.tc : Thread nD τ).loc main_v90) ↦{fullShare} V m c main_v90) ∗ (((c.tc : Thread nD τ).loc main_arg6) ↦{fullShare} V m c main_arg6)
        ∗ (((c.tc : Thread nD τ).loc main_v91) ↦{fullShare} V m c main_v91) ∗ (((c.tc : Thread nD τ).loc main_v92) ↦{fullShare} V m c main_v92)) := by
  unfold Pipeline.arrBufs
  exact bigSep_eq_bigSepL_of_eq [main_v90, main_arg6, main_v91, main_v92] arrRefs_eq (by decide) _

/-- A window's array at the launch, held at the window's share: the buffer behind it at that share. -/
theorem arr_pt (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ ((cfg0.win w).arr.view.loc (c.tc : Thread nD τ) ↦[(cfg0.win w).arr.view.set]{(dats m 0 c).share w} (dats m 0 c).arrAt w 0) := by
  subst hq
  rw [(arr_whole0 w).set_eq_univ]
  show _ ⊢ (_ ↦{_} (dats m 0 c).A w)
  rw [A_eq]

/-- The four arrays, whole at the full share, dealt to the seven windows: each twice-read array's
    share split into its halves. -/
theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  iintro ⟨Hh, HW, Hb, Ho⟩
  ihave Hh' := (pointsTo_share (PosShare.mem_left_op_right fullShare)).1 $$ Hh
  icases Hh' with ⟨Hh1, Hh2⟩
  ihave HW' := (pointsTo_share (PosShare.mem_left_op_right fullShare)).1 $$ HW
  icases HW' with ⟨HW1, HW2⟩
  ihave Hb' := (pointsTo_share (PosShare.mem_left_op_right fullShare)).1 $$ Hb
  icases Hb' with ⟨Hb1, Hb2⟩
  isplitl [Hh1]; · iapply (arr_pt m c 0 fullShare.left rfl); iexact Hh1
  isplitl [Hh2]; · iapply (arr_pt m c 1 fullShare.right rfl); iexact Hh2
  isplitl [HW1]; · iapply (arr_pt m c 2 fullShare.left rfl); iexact HW1
  isplitl [HW2]; · iapply (arr_pt m c 3 fullShare.right rfl); iexact HW2
  isplitl [Hb1]; · iapply (arr_pt m c 4 fullShare.left rfl); iexact Hb1
  isplitl [Hb2]; · iapply (arr_pt m c 5 fullShare.right rfl); iexact Hb2
  iapply (arr_pt m c 6 fullShare rfl); iexact Ho

/-- The launch element of the pipeline's algebra: every staging cell's owner at round 0 and a duty
    token for every transfer the pipeline issues. -/
def u₀ : UR sig nD τ := initOf (Pipeline.cells cfgs cellOf_inj) (Pipeline.launchToks cfgs cellOf_inj)

set_option backward.isDefEq.respectTransparency.types false in
/-- At the compiled mesh, for any float values, from any memory with zero counters: every weakly fair
    execution of the program terminates; every windowed array ends at what the write-backs leave, and
    every other unscoped buffer as the kernel found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun c => Pipeline.unscopedRest spec0 c (V m c))
    (hX := fun c => by
      iintro H
      isplitr; · iempintro
      iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the program runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.FrameKI.lean ====
/-
  The frame of the tiled symmetrised-activation program, at any float instance.

  The program computes node features on the host and then launches one kernel over an 8 × 8 grid of
  1024 × 1024 output tiles. The kernel reads SIX input windows over only THREE arrays: the feature
  array twice (its row block `i` and its row block `j`), the weight array twice (column blocks `j`
  and `i`) and the bias row twice (blocks `j` and `i`); the seventh window is the output tile.
  Because two windows read one array, each such array's ownership is dealt to its two windows as the
  two halves of the full share; reading needs no more, and the one array that is written (the
  output) is behind a window of its own at the full share.

  What is shown here: at every grid point the body, handed its six input tiles and the output tile's
  buffer at any contents, loads the six tiles, stores ONE value covering the whole output tile, and
  returns the inputs as it found them; so every weakly fair execution of the program terminates
  without a fault, the output array ends as the tiles written back point by point, and every other
  array — the eight arguments among them — ends as the kernel found it, which for the arguments is
  as launched, no host operation writing an argument.
-/
import proofs.«174856_j7146825580734_1_alg».proof.Proof.Gen.KernelIdeal.Launch
import proofs.«174856_j7146825580734_1_alg».proof.Proof.Gen.KernelIdeal.Skeleton
import proofs.«174856_j7146825580734_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel's launch -/

/-- What each buffer of a core holds when the kernel is launched: the launch memory after every host
    operation that precedes the launch, in program order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is its host operations, stretch by stretch, and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

/-! ## The tiles -/

/-- Window `w`'s tile at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- An input window's current buffer holds its tile at every point, fetched there or not: where it is
   not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every windowed array at what the write-backs leave and every other
    buffer as the kernel found it: the eight arguments end as launched. The weight array (argument 6)
    is behind input windows, which are never written; the other seven are behind no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) ⟨m, fun _ => 0, ρ⟩ (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 2).trans (((dats 0 c).arrAt_in 2 rfl _).trans ((hA c 2).trans (V_main_arg6 m c))),
      ((h c).2 main_arg7 (Pipeline.mem_restRefs_of main_arg7 (by decide) (by decide))).trans (V_main_arg7 m c)⟩) h

/-! ## The body's accesses -/

abbrev rA : Rect S1024x64 := Rect.unit (s := S1024x64) ![0, 0] S1024x64.size inb_S1024x64_S1024x64_0_0
abbrev rB : Rect S64x1024 := Rect.unit (s := S64x1024) ![0, 0] S64x1024.size inb_S64x1024_S64x1024_0_0
abbrev rC : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

/-- The output tile's buffer after the body, from the six input tiles: the one store, of the body's
    arithmetic at the six loads, through the whole tile. -/
def out0_6 (x0 x1 : Vec F S1024x64 .f32) (x2 x3 : Vec F S64x1024 .f32) (x4 x5 : Vec F S1x1024 .f32) : Vec F S1024x1024 .f32 :=
  View.canon [⟨rO, k0_pay1 (View.ld x0 rA) (View.ld x1 rA) (View.ld x2 rB) (View.ld x3 rB) (View.ld x4 rC) (View.ld x5 rC)⟩]

/-- The one store covers the tile. -/
theorem cover0_6 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 4000000 in
/-- On whole buffers, the six inputs' at contents `x0 … x5` and the output's at anything, the body runs
    to its return holding the inputs as they were and the output at `out0_6` of them. -/
theorem sound_kernel (c : Dev nD) (E : Set ℕ) (i : grid0.Coords)
    (arg2 : Memref sig .tc .vmem S1024x64 .f32) (harg2 : arg2.IsWhole) (arg3 : Memref sig .tc .vmem S1024x64 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1024x1024 .f32) (harg8 : arg8.IsWhole)
    (x0 x1 : Vec F S1024x64 .f32) (x2 x3 : Vec F S64x1024 .f32) (x4 x5 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__tanh_sym_kernel i arg2 harg2 arg3 harg3 arg4 harg4 arg5 harg5 arg6 harg6 arg7 harg7 arg8 harg8) K := by
  simp only [cc0__tanh_sym_kernel_eq_skeleton]; unfold cc0__tanh_sym_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data -/

/-- The share of its array an input window holds: two windows read each of the three input arrays,
    and take the two halves of the full share. -/
def qOf : Fin cfg0.W → PosShare TreeShare
  | ⟨0, _⟩ => fullShare.left
  | ⟨1, _⟩ => fullShare.right
  | ⟨2, _⟩ => fullShare.left
  | ⟨3, _⟩ => fullShare.right
  | ⟨4, _⟩ => fullShare.left
  | ⟨5, _⟩ => fullShare.right
  | _ => fullShare

/-- On core `c`: the arrays as the kernel finds them; after the body at point `t` each input's buffer at
    its tile and the output's at `out0_6` of the six tiles; nothing carried between points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := iprop(emp)
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their tiles, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunKI.lean ====
/-
  The launch of the tiled symmetrised-activation kernel, and the program's frame.

  The kernel's seven windows stand on four arrays: the features (windows 0 and 1), the weights
  (windows 2 and 3), the bias row (windows 4 and 5) and the output (window 6). At the launch each of
  the four arrays is held whole at the full share; the three that are read twice are each split into
  the two halves of that share, one per window. With the body obligation at every grid point, the
  launch rule for windows that share arrays gives the run: every weakly fair execution terminates,
  every windowed array ends at what the write-backs leave, every other buffer as the kernel found it.
-/
import proofs.«174856_j7146825580734_1_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's copy of the rounds algebra. -/
abbrev EP : Emb (UR sig nD τ) (MT nD τ sig Unit (Elt F) ℕ (UR sig nD τ) ℕ) := emb₁

/-- The four arrays behind the seven windows. -/
theorem arrRefs_eq : Finset.univ.image (Pipeline.arrRef spec0) = [main_v90, main_arg6, main_v91, main_v92].toFinset := by decide

/-- The four arrays' points-tos, one by one. -/
theorem arrBufs_eq (c : Dev nD) : (Pipeline.arrBufs spec0 c (V m c) : sProp 𝕄)
    = iprop((((c.tc : Thread nD τ).loc main_v90) ↦{fullShare} V m c main_v90) ∗ (((c.tc : Thread nD τ).loc main_arg6) ↦{fullShare} V m c main_arg6)
        ∗ (((c.tc : Thread nD τ).loc main_v91) ↦{fullShare} V m c main_v91) ∗ (((c.tc : Thread nD τ).loc main_v92) ↦{fullShare} V m c main_v92)) := by
  unfold Pipeline.arrBufs
  exact bigSep_eq_bigSepL_of_eq [main_v90, main_arg6, main_v91, main_v92] arrRefs_eq (by decide) _

/-- A window's array at the launch, held at the window's share: the buffer behind it at that share. -/
theorem arr_pt (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ ((cfg0.win w).arr.view.loc (c.tc : Thread nD τ) ↦[(cfg0.win w).arr.view.set]{(dats m 0 c).share w} (dats m 0 c).arrAt w 0) := by
  subst hq
  rw [(arr_whole0 w).set_eq_univ]
  show _ ⊢ (_ ↦{_} (dats m 0 c).A w)
  rw [A_eq]

/-- The four arrays, whole at the full share, dealt to the seven windows: each twice-read array's
    share split into its halves. -/
theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  iintro ⟨Hh, HW, Hb, Ho⟩
  ihave Hh' := (pointsTo_share (PosShare.mem_left_op_right fullShare)).1 $$ Hh
  icases Hh' with ⟨Hh1, Hh2⟩
  ihave HW' := (pointsTo_share (PosShare.mem_left_op_right fullShare)).1 $$ HW
  icases HW' with ⟨HW1, HW2⟩
  ihave Hb' := (pointsTo_share (PosShare.mem_left_op_right fullShare)).1 $$ Hb
  icases Hb' with ⟨Hb1, Hb2⟩
  isplitl [Hh1]; · iapply (arr_pt m c 0 fullShare.left rfl); iexact Hh1
  isplitl [Hh2]; · iapply (arr_pt m c 1 fullShare.right rfl); iexact Hh2
  isplitl [HW1]; · iapply (arr_pt m c 2 fullShare.left rfl); iexact HW1
  isplitl [HW2]; · iapply (arr_pt m c 3 fullShare.right rfl); iexact HW2
  isplitl [Hb1]; · iapply (arr_pt m c 4 fullShare.left rfl); iexact Hb1
  isplitl [Hb2]; · iapply (arr_pt m c 5 fullShare.right rfl); iexact Hb2
  iapply (arr_pt m c 6 fullShare rfl); iexact Ho

/-- The launch element of the pipeline's algebra: every staging cell's owner at round 0 and a duty
    token for every transfer the pipeline issues. -/
def u₀ : UR sig nD τ := initOf (Pipeline.cells cfgs cellOf_inj) (Pipeline.launchToks cfgs cellOf_inj)

set_option backward.isDefEq.respectTransparency.types false in
/-- At the compiled mesh, for any float values, from any memory with zero counters: every weakly fair
    execution of the program terminates; every windowed array ends at what the write-backs leave, and
    every other unscoped buffer as the kernel found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun c => Pipeline.unscopedRest spec0 c (V m c))
    (hX := fun c => by
      iintro H
      isplitr; · iempintro
      iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the program runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  The function both programs compute, stated once over literal shapes and importing neither program.

  From a node-feature array `h` (8192 rows of 64 features), a weight array `W` (64 × 8192) and a bias `b`
  (8192 entries), the pre-activation at (r, c) is the row-by-column product plus the column's bias,
      pre h W b r c = (∑ k, h[r, k] · W[k, c]) + b[c],
  and the result at (r, c) is the symmetrised activation
      out h W b (r, c) = ½ · (tanh (pre r c) + tanh (pre c r)),
  all over the extended reals, with `½` kept as the binary word both programs print.
-/
import Idealize.ShloMosaic.PureOps.Ideal
import Idealize.ShloMosaic.Lib.ValueIdx

noncomputable section

open scoped BigOperators

namespace Cert.SymTanh

open Idealize.ShloMosaic Idealize.ShloMosaic.ValueIdx

/-- Node features: 8192 rows of 64. -/
abbrev SN64 : Shape := ⟨2, ![8192, 64]⟩
/-- The last layer's weights: 64 rows of 8192. -/
abbrev S64N : Shape := ⟨2, ![64, 8192]⟩
/-- The last layer's bias. -/
abbrev SN : Shape := ⟨1, ![8192]⟩
/-- The result: 8192 × 8192. -/
abbrev SNN : Shape := ⟨2, ![8192, 8192]⟩

/-- The pre-activation at row `r`, column `c`: row `r` of `h` against column `c` of `W`, plus `b[c]`. -/
def pre (h : SN64.Idx → EReal) (W : S64N.Idx → EReal) (b : SN.Idx → EReal) (r c : Fin 8192) : EReal :=
  (∑ k : Fin 64, h (ix2 r k) * W (ix2 k c)) + b (ix1 c)

/-- The result at row `r`, column `c`: half the sum of the activation there and at the mirrored place. -/
def outAt (h : SN64.Idx → EReal) (W : S64N.Idx → EReal) (b : SN.Idx → EReal) (r c : Fin 8192) : EReal :=
  Ideal.ofBits .f32 0x3F000000#32 * (Ideal.tanh (pre h W b r c) + Ideal.tanh (pre h W b c r))

/-- The whole result array. -/
def out (h : SN64.Idx → EReal) (W : S64N.Idx → EReal) (b : SN.Idx → EReal) : SNN.Idx → EReal :=
  fun i => outAt h W b (i 0) (i 1)

theorem out_ix2 (h : SN64.Idx → EReal) (W : S64N.Idx → EReal) (b : SN.Idx → EReal) (r c : Fin 8192) :
    out h W b (ix2 r c) = outAt h W b r c := rfl

end Cert.SymTanh

end
-- ==== Proof.KernelValue.lean ====
/-
  The kernel body's one stored value, read at an index.

  The body loads two blocks of node features (1024 rows of 64), two blocks of weights (64 rows of 1024 columns) and two
  bias rows (1 × 1024), and stores
      ½ · (tanh (A · B + β) + (tanh (A' · B' + β'))ᵀ),
  where the products are contractions over the 64 features into a zero accumulator, each bias row is repeated down the
  1024 rows, and the narrowing of the operands is the identity on extended reals. At entry (p, q) this is
      ½ · (tanh ((∑ k, A[p, k] · B[k, q]) + β[0, q]) + tanh ((∑ k, A'[q, k] · B'[k, p]) + β'[0, p])):
  the transposed term is read at the mirrored place (q, p).
-/
import proofs.«174856_j7146825580734_1_alg».proof.Proof.Gen.KernelIdeal.Skeleton
import proofs.«174856_j7146825580734_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-- On the row axis the left operand's index is the output's row. -/
theorem lhs_row (j : S1024x1024.Idx) (c : dot_S1024x64_S64x1024_S1024x1024_1_0_0_1_n_n.contr.Idx) :
    (dot_S1024x64_S64x1024_S1024x1024_1_0_0_1_n_n.lhsIdx j c 0).val = (j 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl

/-- On the contracted axis the left operand's index is the contraction position. -/
theorem lhs_contr (j : S1024x1024.Idx) (c : dot_S1024x64_S64x1024_S1024x1024_1_0_0_1_n_n.contr.Idx) :
    (dot_S1024x64_S64x1024_S1024x1024_1_0_0_1_n_n.lhsIdx j c 1).val = (c ⟨0, by decide⟩).val :=
  dot_S1024x64_S64x1024_S1024x1024_1_0_0_1_n_n.lhsIdx_val_of_single rfl j c

/-- On the contracted axis the right operand's index is the contraction position. -/
theorem rhs_contr (j : S1024x1024.Idx) (c : dot_S1024x64_S64x1024_S1024x1024_1_0_0_1_n_n.contr.Idx) :
    (dot_S1024x64_S64x1024_S1024x1024_1_0_0_1_n_n.rhsIdx j c 0).val = (c ⟨0, by decide⟩).val :=
  dot_S1024x64_S64x1024_S1024x1024_1_0_0_1_n_n.rhsIdx_val_of_single rfl j c

/-- On the column axis the right operand's index is the output's column. -/
theorem rhs_col (j : S1024x1024.Idx) (c : dot_S1024x64_S64x1024_S1024x1024_1_0_0_1_n_n.contr.Idx) :
    (dot_S1024x64_S64x1024_S1024x1024_1_0_0_1_n_n.rhsIdx j c 1).val = (j 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The block product into a zero accumulator, at entry (p, q): row p of the left operand against column q of the right. -/
theorem matmul_zero_apply {φ₁ φ₂ : FTy} (A : FVec Ideal S1024x64 φ₁) (B : FVec Ideal S64x1024 φ₂) (p q : Fin 1024) :
    matmul dot_S1024x64_S64x1024_S1024x1024_1_0_0_1_n_n none A B (constant (F := Ideal) S1024x1024 .f32 0x00000000#32) (ix2 p q)
      = ∑ k : Fin 64, A (ix2 p k) * B (ix2 k q) := by
  show FloatOps.matmul dot_S1024x64_S64x1024_S1024x1024_1_0_0_1_n_n none A B (constant S1024x1024 .f32 0x00000000#32) (ix2 p q) = _
  rw [Ideal.matmul_constant_zero_apply,
    ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q)
      ((contrEquiv1 dot_S1024x64_S64x1024_S1024x1024_1_0_0_1_n_n 64 rfl rfl).symm k) = ix2 p k :=
    funext fun a => Fin.ext (by
      match a with
      | ⟨0, _⟩ => exact lhs_row _ _
      | ⟨1, _⟩ => exact (lhs_contr _ _).trans hk)
  have er : dot_S1024x64_S64x1024_S1024x1024_1_0_0_1_n_n.rhsIdx (ix2 p q)
      ((contrEquiv1 dot_S1024x64_S64x1024_S1024x1024_1_0_0_1_n_n 64 rfl rfl).symm k) = ix2 k q :=
    funext fun a => Fin.ext (by
      match a with
      | ⟨0, _⟩ => exact (rhs_contr _ _).trans hk
      | ⟨1, _⟩ => exact rhs_col _ _)
  rw [el, er]

/-- One activation term at entry (p, q): the narrowed operands' product plus the bias row repeated down the rows,
    under tanh. -/
theorem act_apply (A : Vec Ideal S1024x64 .f32) (B : Vec Ideal S64x1024 .f32) (β : Vec Ideal S1x1024 .f32) (p q : Fin 1024) :
    (tanh (addf
        (matmul dot_S1024x64_S64x1024_S1024x1024_1_0_0_1_n_n none
          (truncf .bf16 (shapeCast S1024x64 A shapeCasts_S1024x64_S1024x64) bitsLt_bf16_f32)
          (truncf .bf16 B bitsLt_bf16_f32) (constant (F := Ideal) S1024x1024 .f32 0x00000000#32))
        (broadcastTo S1024x1024 (shapeCast S1x1024 β shapeCasts_S1x1024_S1x1024) broadcasts_S1x1024_S1024x1024))
      : FVec Ideal S1024x1024 .f32) (ix2 p q)
      = Ideal.tanh ((∑ k : Fin 64, A (ix2 p k) * B (ix2 k q)) + β (ix2 (0 : Fin 1) q)) := by
  show Ideal.tanh (_ + _) = _
  rw [matmul_zero_apply, broadcastTo_1b_ab_apply, shapeCast_self, shapeCast_self]
  rfl

/-- THE STORED VALUE AT ENTRY (p, q). -/
theorem pay_apply (v0 v3 : Vec Ideal S1024x64 .f32) (v6 v8 : Vec Ideal S64x1024 .f32) (v11 v16 : Vec Ideal S1x1024 .f32)
    (p q : Fin 1024) :
    Gen.k0_pay1 (F := Ideal) v0 v3 v6 v8 v11 v16 (ix2 p q)
      = Ideal.ofBits .f32 0x3F000000#32 * (Ideal.tanh ((∑ k : Fin 64, v0 (ix2 p k) * v6 (ix2 k q)) + v11 (ix2 (0 : Fin 1) q))
          + Ideal.tanh ((∑ k : Fin 64, v3 (ix2 q k) * v8 (ix2 k p)) + v16 (ix2 (0 : Fin 1) p))) := by
  unfold Gen.k0_pay1
  rw [mulf_apply, addf_apply, broadcast_apply, transpose_ix2_apply, act_apply, act_apply]
  rfl

/-- THE STORED VALUE IS THE SPECIFICATION'S ENTRY. When the six loaded blocks are the blocks of the node features, the
    weights and the bias that tile position (bi, bj) reads — rows bi·1024 + p of the features against columns bj·1024 + q
    of the weights with the bias at those columns, and, for the mirrored term, rows bj·1024 + q against columns
    bi·1024 + p with the bias there — entry (p, q) of the stored block is the symmetrised activation at
    (bi·1024 + p, bj·1024 + q). -/
theorem pay_outAt (h : Cert.SymTanh.SN64.Idx → EReal) (W : Cert.SymTanh.S64N.Idx → EReal) (b : Cert.SymTanh.SN.Idx → EReal)
    (bi bj : Fin 8) (v0 v3 : Vec Ideal S1024x64 .f32) (v6 v8 : Vec Ideal S64x1024 .f32) (v11 v16 : Vec Ideal S1x1024 .f32)
    (h0 : ∀ (p : Fin 1024) (k : Fin 64), v0 (ix2 p k) = h (ix2 ⟨bi.val * 1024 + p.val, by omega⟩ k))
    (h3 : ∀ (p : Fin 1024) (k : Fin 64), v3 (ix2 p k) = h (ix2 ⟨bj.val * 1024 + p.val, by omega⟩ k))
    (h6 : ∀ (k : Fin 64) (q : Fin 1024), v6 (ix2 k q) = W (ix2 k ⟨bj.val * 1024 + q.val, by omega⟩))
    (h8 : ∀ (k : Fin 64) (q : Fin 1024), v8 (ix2 k q) = W (ix2 k ⟨bi.val * 1024 + q.val, by omega⟩))
    (h11 : ∀ q : Fin 1024, v11 (ix2 (0 : Fin 1) q) = b (ix1 ⟨bj.val * 1024 + q.val, by omega⟩))
    (h16 : ∀ q : Fin 1024, v16 (ix2 (0 : Fin 1) q) = b (ix1 ⟨bi.val * 1024 + q.val, by omega⟩)) (p q : Fin 1024) :
    Gen.k0_pay1 (F := Ideal) v0 v3 v6 v8 v11 v16 (ix2 p q)
      = Cert.SymTanh.outAt h W b ⟨bi.val * 1024 + p.val, by omega⟩ ⟨bj.val * 1024 + q.val, by omega⟩ := by
  have e1 : (∑ k : Fin 64, v0 (ix2 p k) * v6 (ix2 k q))
      = ∑ k : Fin 64, h (ix2 (⟨bi.val * 1024 + p.val, by omega⟩ : Fin 8192) k) * W (ix2 k (⟨bj.val * 1024 + q.val, by omega⟩ : Fin 8192)) :=
    Finset.sum_congr rfl fun k _ => by rw [h0 p k, h6 k q]
  have e2 : (∑ k : Fin 64, v3 (ix2 q k) * v8 (ix2 k p))
      = ∑ k : Fin 64, h (ix2 (⟨bj.val * 1024 + q.val, by omega⟩ : Fin 8192) k) * W (ix2 k (⟨bi.val * 1024 + p.val, by omega⟩ : Fin 8192)) :=
    Finset.sum_congr rfl fun k _ => by rw [h3 q k, h8 k p]
  rw [pay_apply, e1, e2, h11 q, h16 p]
  rfl

end Cert.KernelIdeal.KValue

end
-- ==== Proof.KernelFinal.lean ====
/-
  From the output tiles to the whole output array.

  The kernel runs over an 8 × 8 grid; grid point t = 8·i + j (i the row block, j the column block) writes back output
  tile (i, j), a 1024 × 1024 block. At that point the six input tiles are: rows block i and rows block j of the node
  features, columns block j and columns block i of the weights, and blocks j and i of the bias row. So entry (p, q) of
  the tile written back at t is the symmetrised activation at (1024·i + p, 1024·j + q), that is, the tile is block t of
  the specification's array; the 64 tiles cover the 8192 × 8192 array (entry (r, c) lies in the tile of the point
  8·(r / 1024) + c / 1024), hence the array ends as the specification's.
-/
import proofs.«174856_j7146825580734_1_alg».proof.Proof.FrameKI
import proofs.«174856_j7146825580734_1_alg».proof.Proof.KernelValue
import proofs.«174856_j7146825580734_1_alg».proof.Proof.Spec
import Idealize.ShloMosaic.Lib.Pipeline.Value
import Idealize.ShloMosaic.Lib.ValueIdx

noncomputable section

namespace Cert.KernelIdeal.KFinal

open Cert.KernelIdeal Cert.KernelIdeal.Gen Cert.KernelIdeal.Hand Cert.KernelIdeal.KValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The offsets of a whole-tile rectangle are zero. -/
theorem hz : (![0, 0] : Fin 2 → Nat) = fun _ => 0 := funext fun a => by fin_cases a <;> rfl

/-- The grid has 64 points. -/
theorem tlt (t : Fin cfg0.N) : t.val < 64 := lt_of_lt_of_eq t.isLt Gen.N_0

/-- The row block of grid point t. -/
def bi (t : Fin cfg0.N) : Fin 8 := ⟨t.val / 8, by have := tlt t; omega⟩
/-- The column block of grid point t. -/
def bj (t : Fin cfg0.N) : Fin 8 := ⟨t.val % 8, by omega⟩

/-- The seven block-index maps over the 64 grid points: the two feature windows sit at row blocks i and j, the two weight
    windows at column blocks j and i, the two bias windows at blocks j and i, the output window at tile (i, j). -/
theorem idx_facts : ∀ t : Fin cfg0.N,
      win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val / 8
    ∧ win0_4.index t (0 : Fin 2) = 0 ∧ win0_4.index t (1 : Fin 2) = t.val % 8
    ∧ win0_5.index t (0 : Fin 2) = 0 ∧ win0_5.index t (1 : Fin 2) = t.val / 8
    ∧ win0_6.index t (0 : Fin 2) = t.val / 8 ∧ win0_6.index t (1 : Fin 2) = t.val % 8 :=
  (by decide +kernel : ∀ t : Fin grid0.N, _)

/-! ## Each input tile, read where the output tile's place says -/

/-- The first feature tile is rows block i of the features. -/
theorem rd0 (c : Dev nD) (t : Fin cfg0.N) (p : Fin 1024) (k : Fin 64) :
    iblk m c 0 t (ix2 p k) = V m c main_v90 (ix2 (⟨(bi t).val * 1024 + p.val, by omega⟩ : Fin 8192) k) := by
  obtain ⟨e00, e01, -⟩ := idx_facts t
  have hb : (bi t).val = t.val / 8 := rfl
  show V m c main_v90 (((cfg0.win 0).blk t).view.emb (ix2 p k)) = _
  refine congrArg (V m c main_v90) (funext fun a => Fin.ext ?_)
  match a with
  | ⟨0, _⟩ => show win0_0.index t (0 : Fin 2) * 1024 + 1 * p.val = (bi t).val * 1024 + p.val; omega
  | ⟨1, _⟩ => show win0_0.index t (1 : Fin 2) * 64 + 1 * k.val = k.val; omega

/-- The second feature tile is rows block j of the features. -/
theorem rd1 (c : Dev nD) (t : Fin cfg0.N) (p : Fin 1024) (k : Fin 64) :
    iblk m c 1 t (ix2 p k) = V m c main_v90 (ix2 (⟨(bj t).val * 1024 + p.val, by omega⟩ : Fin 8192) k) := by
  obtain ⟨-, -, e10, e11, -⟩ := idx_facts t
  have hb : (bj t).val = t.val % 8 := rfl
  show V m c main_v90 (((cfg0.win 1).blk t).view.emb (ix2 p k)) = _
  refine congrArg (V m c main_v90) (funext fun a => Fin.ext ?_)
  match a with
  | ⟨0, _⟩ => show win0_1.index t (0 : Fin 2) * 1024 + 1 * p.val = (bj t).val * 1024 + p.val; omega
  | ⟨1, _⟩ => show win0_1.index t (1 : Fin 2) * 64 + 1 * k.val = k.val; omega

/-- The first weight tile is columns block j of the weights. -/
theorem rd2 (c : Dev nD) (t : Fin cfg0.N) (k : Fin 64) (q : Fin 1024) :
    iblk m c 2 t (ix2 k q) = V m c main_arg6 (ix2 k (⟨(bj t).val * 1024 + q.val, by omega⟩ : Fin 8192)) := by
  obtain ⟨-, -, -, -, e20, e21, -⟩ := idx_facts t
  have hb : (bj t).val = t.val % 8 := rfl
  show V m c main_arg6 (((cfg0.win 2).blk t).view.emb (ix2 k q)) = _
  refine congrArg (V m c main_arg6) (funext fun a => Fin.ext ?_)
  match a with
  | ⟨0, _⟩ => show win0_2.index t (0 : Fin 2) * 64 + 1 * k.val = k.val; omega
  | ⟨1, _⟩ => show win0_2.index t (1 : Fin 2) * 1024 + 1 * q.val = (bj t).val * 1024 + q.val; omega

/-- The second weight tile is columns block i of the weights. -/
theorem rd3 (c : Dev nD) (t : Fin cfg0.N) (k : Fin 64) (q : Fin 1024) :
    iblk m c 3 t (ix2 k q) = V m c main_arg6 (ix2 k (⟨(bi t).val * 1024 + q.val, by omega⟩ : Fin 8192)) := by
  obtain ⟨-, -, -, -, -, -, e30, e31, -⟩ := idx_facts t
  have hb : (bi t).val = t.val / 8 := rfl
  show V m c main_arg6 (((cfg0.win 3).blk t).view.emb (ix2 k q)) = _
  refine congrArg (V m c main_arg6) (funext fun a => Fin.ext ?_)
  match a with
  | ⟨0, _⟩ => show win0_3.index t (0 : Fin 2) * 64 + 1 * k.val = k.val; omega
  | ⟨1, _⟩ => show win0_3.index t (1 : Fin 2) * 1024 + 1 * q.val = (bi t).val * 1024 + q.val; omega

/-- The first bias tile is block j of the bias row. -/
theorem rd4 (c : Dev nD) (t : Fin cfg0.N) (q : Fin 1024) :
    iblk m c 4 t (ix2 (0 : Fin 1) q) = V m c main_v91 (ix2 (0 : Fin 1) (⟨(bj t).val * 1024 + q.val, by omega⟩ : Fin 8192)) := by
  obtain ⟨-, -, -, -, -, -, -, -, e40, e41, -⟩ := idx_facts t
  have hb : (bj t).val = t.val % 8 := rfl
  show V m c main_v91 (((cfg0.win 4).blk t).view.emb (ix2 (0 : Fin 1) q)) = _
  refine congrArg (V m c main_v91) (funext fun a => Fin.ext ?_)
  match a with
  | ⟨0, _⟩ => show win0_4.index t (0 : Fin 2) * 1 + 1 * 0 = 0; omega
  | ⟨1, _⟩ => show win0_4.index t (1 : Fin 2) * 1024 + 1 * q.val = (bj t).val * 1024 + q.val; omega

/-- The second bias tile is block i of the bias row. -/
theorem rd5 (c : Dev nD) (t : Fin cfg0.N) (q : Fin 1024) :
    iblk m c 5 t (ix2 (0 : Fin 1) q) = V m c main_v91 (ix2 (0 : Fin 1) (⟨(bi t).val * 1024 + q.val, by omega⟩ : Fin 8192)) := by
  obtain ⟨-, -, -, -, -, -, -, -, -, -, e50, e51, -⟩ := idx_facts t
  have hb : (bi t).val = t.val / 8 := rfl
  show V m c main_v91 (((cfg0.win 5).blk t).view.emb (ix2 (0 : Fin 1) q)) = _
  refine congrArg (V m c main_v91) (funext fun a => Fin.ext ?_)
  match a with
  | ⟨0, _⟩ => show win0_5.index t (0 : Fin 2) * 1 + 1 * 0 = 0; omega
  | ⟨1, _⟩ => show win0_5.index t (1 : Fin 2) * 1024 + 1 * q.val = (bi t).val * 1024 + q.val; omega

/-- Entry (p, q) of output tile t sits in the array at (1024·i + p, 1024·j + q). -/
theorem emb6 (t : Fin cfg0.N) (p q : Fin 1024) :
    ((cfg0.win 6).blk t).view.emb (ix2 p q)
      = ix2 (⟨(bi t).val * 1024 + p.val, by omega⟩ : Fin 8192) (⟨(bj t).val * 1024 + q.val, by omega⟩ : Fin 8192) := by
  obtain ⟨-, -, -, -, -, -, -, -, -, -, -, -, e60, e61⟩ := idx_facts t
  have hbi : (bi t).val = t.val / 8 := rfl
  have hbj : (bj t).val = t.val % 8 := rfl
  refine funext fun a => Fin.ext ?_
  match a with
  | ⟨0, _⟩ => show win0_6.index t (0 : Fin 2) * 1024 + 1 * p.val = (bi t).val * 1024 + p.val; omega
  | ⟨1, _⟩ => show win0_6.index t (1 : Fin 2) * 1024 + 1 * q.val = (bj t).val * 1024 + q.val; omega

/-! ## What each point writes back -/

/-- The specification's array of the three arrays as the kernel finds them: the features, the weights, and the bias
    read off its one row. -/
abbrev G (c : Dev nD) : S8192x8192.Idx → EReal :=
  Cert.SymTanh.out (V m c main_v90) (V m c main_arg6) (fun i => V m c main_v91 (ix2 (0 : Fin 1) (i 0)))

/-- WHAT POINT t WRITES BACK is block t of the specification's array. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S1024x64) hz, View.ld_unit_zero (S := S64x1024) hz, View.ld_unit_zero (S := S1x1024) hz]
  funext y
  obtain ⟨p, q, rfl⟩ : ∃ (p q : Fin 1024), y = ix2 p q := ⟨y 0, y 1, eq_ix2 y⟩
  show Gen.k0_pay1 (F := Ideal) (iblk m c 0 t) (iblk m c 1 t) (iblk m c 2 t) (iblk m c 3 t) (iblk m c 4 t) (iblk m c 5 t) (ix2 p q)
    = G m c (((cfg0.win 6).blk t).view.emb (ix2 p q))
  rw [emb6 t p q]
  exact pay_outAt _ _ _ (bi t) (bj t) _ _ _ _ _ _ (rd0 m c t) (rd1 m c t) (rd2 m c t) (rd3 m c t) (rd4 m c t) (rd5 m c t) p q

/-! ## The tiles cover the array -/

/-- An entry of the array is in point t's tile iff each coordinate is in the tile's range on its axis. -/
theorem mem_blk (t : Fin cfg0.N) (i : S8192x8192.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v92).slice (win0_6.rect t)).set ↔ _
  rw [View.set_slice_whole, Rect.mem_set_unit]
  exact Iff.rfl

/-- Entry (r, c) lies in the tile of the point 8·(r / 1024) + c / 1024, which writes back. -/
theorem cover (i : S8192x8192.Idx) :
    ∃ t : Fin cfg0.N, (cfg0.win 6).flush t = true ∧ i ∈ ((cfg0.win 6).blk t).view.set := by
  have h0 : (i 0).val < 8192 := (i 0).isLt
  have h1 : (i 1).val < 8192 := (i 1).isLt
  obtain ⟨t, ht⟩ : ∃ t : Fin cfg0.N, t.val = (i 0).val / 1024 * 8 + (i 1).val / 1024 :=
    ⟨⟨(i 0).val / 1024 * 8 + (i 1).val / 1024, by show _ < grid0.N; rw [Gen.N_0]; omega⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-! ## The array after the run -/

/-- THE OUTPUT ARRAY after the write-backs is the specification's array of the features, the weights and the bias as the
    kernel finds them. -/
theorem final (m : (ℓ : Loc nD τ sig) → Buf (Elt Ideal) ℓ) (c : Dev nD) :
    (Cert.KernelIdeal.Hand.dats (F := Ideal) m 0 c).arrAt 6 cfg0.N
      = Cert.SymTanh.out (Cert.KernelIdeal.Hand.V m c main_v90) (Cert.KernelIdeal.Hand.V m c main_arg6)
          (fun i => Cert.KernelIdeal.Hand.V m c main_v91 (ix2 (0 : Fin 1) (i 0))) :=
  (dats m 0 c).arrAt_eq_of_cover 6 (G m c) (fun t _ => flushed_eq m c t) cover

end Cert.KernelIdeal.KFinal

end
-- ==== Proof.KernelRun.lean ====
/-
  The kernel program's run, with its result named.

  The program computes the node features on the host, reshapes the bias (8192 entries) to one row of 8192, and
  launches the tiled kernel. The run ends with the output array at the specification's array of the features as the
  kernel finds them, the weights and the bias as launched, and every argument as launched: no host operation writes the
  weights, and the bias row is the bias read along its one row, so the row's entry (0, c) is the bias at c.
-/
import proofs.«174856_j7146825580734_1_alg».proof.Proof.RunKI
import proofs.«174856_j7146825580734_1_alg».proof.Proof.KernelFinal
import Idealize.ShloMosaic.Lib.StableHlo.Run
import Idealize.ShloMosaic.Lib.ValueLayout

set_option maxRecDepth 16384

noncomputable section

namespace Cert.KernelIdeal.KRun

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-- The bias row the kernel finds is the launched bias cast from 8192 entries to one row of 8192. -/
theorem V_bias (m : (ℓ : Loc nD τ sig) → Buf (Elt Ideal) ℓ) (c : Dev nD) :
    V (F := Ideal) m c main_v91 = shapeCast S1x8192 (m ((c.tc : Thread nD τ).loc main_arg7)) shapeCasts_S8192_S1x8192 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- Read along its one row, the bias row is the launched bias. -/
theorem bias_row (m : (ℓ : Loc nD τ sig) → Buf (Elt Ideal) ℓ) (c : Dev nD) :
    (fun i : Cert.SymTanh.SN.Idx => V (F := Ideal) m c main_v91 (ix2 (0 : Fin 1) (i 0)))
      = m ((c.tc : Thread nD τ).loc main_arg7) := by
  funext i
  rw [V_bias]
  exact (shapeCast_a_1a_apply _ shapeCasts_S8192_S1x8192 (0 : Fin 1) (i 0)).trans (congrArg _ (eq_ix1 i).symm)

/-- The specification's array of the arrays as the kernel finds them is that of the features as found and the weights
    and the bias as launched. -/
theorem out_operands (m : (ℓ : Loc nD τ sig) → Buf (Elt Ideal) ℓ) (c : Dev nD) :
    Cert.SymTanh.out (V m c main_v90) (V m c main_arg6) (fun i => V m c main_v91 (ix2 (0 : Fin 1) (i 0)))
      = Cert.SymTanh.out (V m c main_v90) (m ((c.tc : Thread nD τ).loc main_arg6)) (m ((c.tc : Thread nD τ).loc main_arg7)) :=
  congrArg₂ (Cert.SymTanh.out (V m c main_v90)) (V_main_arg6 m c) (bias_row m c)

/-- From the run's post — every windowed array at what the write-backs leave, every other buffer as the kernel found it —
    the eight arguments end as launched: the weights sit behind input windows, which are never written; the other seven
    are behind no window and no host operation writes them. -/
theorem args_of_post (m : (ℓ : Loc nD τ sig) → Buf (Elt Ideal) ℓ) (r : PUnit × MemSt nD τ sig (Elt Ideal))
    (h : Pipeline.FramePost cfgs (dats (F := Ideal) m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 2).trans (((dats m 0 c).arrAt_in 2 rfl _).trans ((A_eq m c 2).trans (V_main_arg6 m c))),
    ((h c).2 main_arg7 (Pipeline.mem_restRefs_of main_arg7 (by decide) (by decide))).trans (V_main_arg7 m c)⟩

/-- THE KERNEL PROGRAM'S RUN: every weakly fair execution terminates with the output array at the specification's array
    and the eight arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v92)
          = Cert.SymTanh.out (V m c main_v90) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun r h c => ⟨((h c).1 6).trans ((KFinal.final m c).trans (out_operands m c)), args_of_post m r h c⟩)
    (run_main m ρ)

end Cert.KernelIdeal.KRun

end
-- ==== Proof.KernelHostS.lean ====
/-
  The arrays the kernel is launched on, as functions of the program's arguments.

  Before the launch the program computes, on the host, the node features after two graph-convolution
  layers — each layer a linear map, a degree-normalised gather–scale–scatter over the edge list with
  self-loops appended, a bias and a rectifier. Here the feature array is read back from the
  program's host operations as ONE pure term of the six arguments it depends on.

  The first seven operations build the two endpoint arrays of the extended edge list (a row of the
  edge list followed by the node indices 0 … 8191); every later operation reads those two arrays and
  the arguments only, so the operations are read in two steps: the endpoint arrays first, then the
  rest over them.
-/
import proofs.«174856_j7146825580734_1_alg».proof.Proof.FrameKI
import Idealize.ShloMosaic.Lib.StableHlo.Run
import Idealize.ShloMosaic.PureOps.Ideal

noncomputable section

namespace Cert.KernelIdeal.KHost

open Cert.KernelIdeal Cert.KernelIdeal.Gen Cert.KernelIdeal.Hand
open Idealize.ShloMosaic Idealize.ShloMosaic.TcCoe Idealize.SL.Sem Idealize.ShloMosaic.StableHlo

set_option maxRecDepth 8192 in
/-- The node features after the two layers, as one function of the node inputs `x`, the edge list
    `e`, and the two layers' weights and biases: the host operations composed in program order. -/
def featK (x : (⟨S8192x512, .f32⟩ : BufTy).Contents (Elt Ideal)) (e : (⟨S2x524288, .i32⟩ : BufTy).Contents (Elt Ideal))
    (W1 : (⟨S512x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) :
    (⟨S8192x64, .f32⟩ : BufTy).Contents (Elt Ideal) :=
  maximumf (addf (Host.scatterAdd (F := Ideal) scatter_S8192x64_S532480x1_S532480x64_1_0_0_1 (broadcastInDim S8192x64 ![] bcast_S_S8192x64 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (mulf (Host.gather gather_S8192x64_S532480x1_S532480x64_1_0_n_n_0_1_164 (Host.dotGeneral (F := Ideal) (φ₁ := .f32) (φ₂ := .f32) dot_S8192x64_S64x64_S8192x64_1_0_0_1_n_n none (maximumf (addf (Host.scatterAdd (F := Ideal) scatter_S8192x64_S532480x1_S532480x64_1_0_0_1 (broadcastInDim S8192x64 ![] bcast_S_S8192x64 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (mulf (Host.gather gather_S8192x64_S532480x1_S532480x64_1_0_n_n_0_1_164 (Host.dotGeneral (F := Ideal) (φ₁ := .f32) (φ₂ := .f32) dot_S8192x512_S512x64_S8192x64_1_0_0_1_n_n none x W1) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (broadcastInDim S532480x64 ![0, 1] bcast_S532480x1_S532480x64_0_1 (broadcastInDim S532480x1 ![0] bcast_S532480_S532480x1_0 (mulf (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0))))))))) (broadcastInDim S8192x64 ![0, 1] bcast_S1x64_S8192x64_0_1 (broadcastInDim S1x64 ![1] bcast_S64_S1x64_1 b1))) (broadcastInDim S8192x64 ![] bcast_S_S8192x64 (constant (F := Ideal) S_ .f32 0x00000000#32))) W2) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (broadcastInDim S532480x64 ![0, 1] bcast_S532480x1_S532480x64_0_1 (broadcastInDim S532480x1 ![0] bcast_S532480_S532480x1_0 (mulf (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0))))))))) (broadcastInDim S8192x64 ![0, 1] bcast_S1x64_S8192x64_0_1 (broadcastInDim S1x64 ![1] bcast_S64_S1x64_1 b2))) (broadcastInDim S8192x64 ![] bcast_S_S8192x64 (constant (F := Ideal) S_ .f32 0x00000000#32))

section Generic
variable {F : FTy → Type} [FloatOps F]

/-- The first seven host operations: the two endpoint arrays of the extended edge list. -/
abbrev edgeOps : List (HloOp τ sig (Elt F)) :=
  [ StableHlo.nullary main_v0 (iotaInDim S8192 32 0),
    StableHlo.unary main_arg1 main_v1 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v1 main_v2 rfl shapeCasts_S1x524288_S524288,
    StableHlo.binary main_v2 main_v0 main_v3 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    StableHlo.unary main_arg1 main_v4 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v4 main_v5 rfl shapeCasts_S1x524288_S524288,
    StableHlo.binary main_v5 main_v0 main_v6 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)) ]

/-- The other fourteen operations of the first stretch. -/
abbrev laterOps : List (HloOp τ sig (Elt F)) :=
  [ StableHlo.binary main_arg0 main_arg2 main_v7 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    StableHlo.nullary main_cst (constant S_ .f32 0x3F800000#32),
    StableHlo.unary main_cst main_v8 (broadcastInDim S532480 ![] bcast_S_S532480 : (⟨S_, .f32⟩ : BufTy).Contents (Elt F) → (⟨S532480, .f32⟩ : BufTy).Contents (Elt F)),
    StableHlo.nullary main_cst_0 (constant S_ .f32 0x00000000#32),
    StableHlo.unary main_cst_0 main_v9 (broadcastInDim S8192 ![] bcast_S_S8192 : (⟨S_, .f32⟩ : BufTy).Contents (Elt F) → (⟨S8192, .f32⟩ : BufTy).Contents (Elt F)),
    StableHlo.unary main_v6 main_v10 (broadcastInDim S532480x1 ![0] bcast_S532480_S532480x1_0 : (⟨S532480, .i32⟩ : BufTy).Contents (Elt F) → (⟨S532480x1, .i32⟩ : BufTy).Contents (Elt F)),
    StableHlo.ternary main_v9 main_v10 main_v8 main_v11 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)),
    StableHlo.nullary main_cst_1 (constant S_ .f32 0x00000000#32),
    StableHlo.unary main_cst_1 main_v12 (broadcastInDim S8192 ![] bcast_S_S8192 : (⟨S_, .f32⟩ : BufTy).Contents (Elt F) → (⟨S8192, .f32⟩ : BufTy).Contents (Elt F)),
    StableHlo.binary main_v11 main_v12 main_v13 (cmpf .ogt : (⟨S8192, .f32⟩ : BufTy).Contents (Elt F) → (⟨S8192, .f32⟩ : BufTy).Contents (Elt F) → (⟨S8192, .i1⟩ : BufTy).Contents (Elt F)),
    StableHlo.nullary main_cst_2 (constant S_ .f32 0xBF000000#32),
    StableHlo.unary main_cst_2 main_v14 (broadcastInDim S8192 ![] bcast_S_S8192 : (⟨S_, .f32⟩ : BufTy).Contents (Elt F) → (⟨S8192, .f32⟩ : BufTy).Contents (Elt F)),
    StableHlo.binary main_v11 main_v14 main_v15 (Host.powf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x00000000#32) ]

theorem hostOps0_split : (hostOps0 : List (HloOp τ sig (Elt F))) = edgeOps ++ laterOps := rfl

/- The two outlined functions (a select by a mask against a scalar, and the rectifier) are called twice
   each; a call's operations are stated over typed references, which transport contents by the identity,
   so each call is the same three operations over the plain references. -/
/-- The select-by-mask function's three operations at one call site, over plain references. -/
abbrev whereOps1 : List (HloOp τ sig (Elt F)) :=
  [ StableHlo.unary main_cst_3 main_call0_v0 (id : (⟨S_, .f32⟩ : BufTy).Contents (Elt F) → (⟨S_, .f32⟩ : BufTy).Contents (Elt F)),
    StableHlo.unary main_call0_v0 main_call0_v1 (broadcastInDim S8192 ![] bcast_S_S8192 : (⟨S_, .f32⟩ : BufTy).Contents (Elt F) → (⟨S8192, .f32⟩ : BufTy).Contents (Elt F)),
    StableHlo.ternary main_v13 main_v15 main_call0_v1 main_v16 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)) ]

/-- The rectifier's three operations at one call site, over plain references. -/
abbrev reluOps1 : List (HloOp τ sig (Elt F)) :=
  [ StableHlo.nullary main_call1_cst (constant S_ .f32 0x00000000#32),
    StableHlo.unary main_call1_cst main_call1_v0 (broadcastInDim S8192x64 ![] bcast_S_S8192x64 : (⟨S_, .f32⟩ : BufTy).Contents (Elt F) → (⟨S8192x64, .f32⟩ : BufTy).Contents (Elt F)),
    StableHlo.binary main_v47 main_call1_v0 main_v48 (maximumf : (⟨S8192x64, .f32⟩ : BufTy).Contents (Elt F) → (⟨S8192x64, .f32⟩ : BufTy).Contents (Elt F) → (⟨S8192x64, .f32⟩ : BufTy).Contents (Elt F)) ]

/-- The select-by-mask function's three operations at one call site, over plain references. -/
abbrev whereOps2 : List (HloOp τ sig (Elt F)) :=
  [ StableHlo.unary main_cst_14 main_call2_v0 (id : (⟨S_, .f32⟩ : BufTy).Contents (Elt F) → (⟨S_, .f32⟩ : BufTy).Contents (Elt F)),
    StableHlo.unary main_call2_v0 main_call2_v1 (broadcastInDim S8192 ![] bcast_S_S8192 : (⟨S_, .f32⟩ : BufTy).Contents (Elt F) → (⟨S8192, .f32⟩ : BufTy).Contents (Elt F)),
    StableHlo.ternary main_v55 main_v57 main_call2_v1 main_v58 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)) ]

/-- The rectifier's three operations at one call site, over plain references. -/
abbrev reluOps2 : List (HloOp τ sig (Elt F)) :=
  [ StableHlo.nullary main_call3_cst (constant S_ .f32 0x00000000#32),
    StableHlo.unary main_call3_cst main_call3_v0 (broadcastInDim S8192x64 ![] bcast_S_S8192x64 : (⟨S_, .f32⟩ : BufTy).Contents (Elt F) → (⟨S8192x64, .f32⟩ : BufTy).Contents (Elt F)),
    StableHlo.binary main_v89 main_call3_v0 main_v90 (maximumf : (⟨S8192x64, .f32⟩ : BufTy).Contents (Elt F) → (⟨S8192x64, .f32⟩ : BufTy).Contents (Elt F) → (⟨S8192x64, .f32⟩ : BufTy).Contents (Elt F)) ]

theorem whereOps1_eq : (hostOps0_1 : List (HloOp τ sig (Elt F))) = whereOps1 := rfl
theorem reluOps1_eq : (hostOps0_3 : List (HloOp τ sig (Elt F))) = reluOps1 := rfl
theorem whereOps2_eq : (hostOps0_5 : List (HloOp τ sig (Elt F))) = whereOps2 := rfl
theorem reluOps2_eq : (hostOps0_7 : List (HloOp τ sig (Elt F))) = reluOps2 := rfl

end Generic

variable (m : (ℓ : Loc nD τ sig) → Buf (Elt Ideal) ℓ)

/-- A core's buffers after the first seven operations. -/
def S (c : Dev nD) : Valuation τ sig (Elt Ideal) := StableHlo.after edgeOps (fun b => m (c, b))

/-- The source endpoints: row 0 of the edge list, then the node indices. -/
theorem S_src (c : Dev nD) : S m c (Proc.devRef .tc main_v3) = concatenate S532480 0 [⟨S524288, (shapeCast _ (extractStridedSlice S1x524288 ![0, 0] (m ((c.tc : Thread nD τ).loc main_arg1)) slices_S2x524288_S1x524288_0_0) shapeCasts_S1x524288_S524288)⟩, ⟨S8192, (iotaInDim S8192 32 0)⟩] concatenates_S524288_S8192_S532480_d0 := by
  unfold S
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

/-- The target endpoints: row 1 of the edge list, then the node indices. -/
theorem S_dst (c : Dev nD) : S m c (Proc.devRef .tc main_v6) = concatenate S532480 0 [⟨S524288, (shapeCast _ (extractStridedSlice S1x524288 ![1, 0] (m ((c.tc : Thread nD τ).loc main_arg1)) slices_S2x524288_S1x524288_1_0) shapeCasts_S1x524288_S524288)⟩, ⟨S8192, (iotaInDim S8192 32 0)⟩] concatenates_S524288_S8192_S532480_d0 := by
  unfold S
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

theorem S_arg0 (c : Dev nD) : S m c (Proc.devRef .tc main_arg0) = m ((c.tc : Thread nD τ).loc main_arg0) := by
  unfold S; after_results_simp <;> rfl
theorem S_arg1 (c : Dev nD) : S m c (Proc.devRef .tc main_arg1) = m ((c.tc : Thread nD τ).loc main_arg1) := by
  unfold S; after_results_simp <;> rfl
theorem S_arg2 (c : Dev nD) : S m c (Proc.devRef .tc main_arg2) = m ((c.tc : Thread nD τ).loc main_arg2) := by
  unfold S; after_results_simp <;> rfl
theorem S_arg3 (c : Dev nD) : S m c (Proc.devRef .tc main_arg3) = m ((c.tc : Thread nD τ).loc main_arg3) := by
  unfold S; after_results_simp <;> rfl
theorem S_arg4 (c : Dev nD) : S m c (Proc.devRef .tc main_arg4) = m ((c.tc : Thread nD τ).loc main_arg4) := by
  unfold S; after_results_simp <;> rfl
theorem S_arg5 (c : Dev nD) : S m c (Proc.devRef .tc main_arg5) = m ((c.tc : Thread nD τ).loc main_arg5) := by
  unfold S; after_results_simp <;> rfl

/-- The buffers at the launch are the later operations over the buffers after the first seven. -/
theorem V_split (c : Dev nD) (b : Ref sig .tc) :
    V (F := Ideal) m c b = StableHlo.after (laterOps ++ (whereOps1 ++ (hostOps0_2 ++ (reluOps1 ++ (hostOps0_4 ++ (whereOps2 ++ (hostOps0_6 ++ (reluOps2 ++ hostOps0_8)))))))) (S m c) (Proc.devRef .tc b) := by
  dsimp only [V]
  rw [show List.flatten [hostOps0, hostOps0_1, hostOps0_2, hostOps0_3, hostOps0_4, hostOps0_5, hostOps0_6, hostOps0_7, hostOps0_8] = edgeOps ++ (laterOps ++ (whereOps1 ++ (hostOps0_2 ++ (reluOps1 ++ (hostOps0_4 ++ (whereOps2 ++ (hostOps0_6 ++ (reluOps2 ++ hostOps0_8)))))))) from rfl, StableHlo.after_append]
  rfl

end Cert.KernelIdeal.KHost

end
-- ==== Proof.KernelHost.lean ====
/-
  The feature array the kernel is launched on is the composed host term of the program's arguments.

  The host operations after the first seven mention no list-valued operation, so they are read in
  one pass over the buffers the first seven leave; the outlined functions' calls are read over plain references; and the two endpoint arrays and the arguments are
  then put in for the buffers they were read from.
-/
import proofs.«174856_j7146825580734_1_alg».proof.Proof.KernelHostS

noncomputable section

namespace Cert.KernelIdeal.KHost

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

set_option maxHeartbeats 53200000 in
/-- The feature array the kernel reads is the composed host term of the six arguments. -/
theorem V_feat (c : Dev nD) : V (F := Ideal) m c main_v90 = featK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [V_split]
  simp only [laterOps, whereOps1, hostOps0_2, reluOps1, hostOps0_4, whereOps2, hostOps0_6, reluOps2, hostOps0_8, List.cons_append, List.nil_append]
  after_results_simp
  rw [S_src, S_dst, S_arg0, S_arg2, S_arg3, S_arg4, S_arg5]
  rfl

end Cert.KernelIdeal.KHost

end
-- ==== Proof.RefEdges.lean ====
/-
  The reference's first seven operations build, from the 2 × 524288 edge list, the two index rows used everywhere after:
  the source row and the target row, each with the 8192 self-loops 0 … 8191 appended (532480 entries). Here the buffers
  after those seven operations are named once, and what the rest of the program reads from them is stated: the two
  rows, and the eight arguments unchanged.
-/
import proofs.«174856_j7146825580734_1_alg».proof.Proof.RefRunP
import Idealize.ShloMosaic.Lib.Pipeline.Frame
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The buffers after the first seven operations, from the launch contents. -/
def S1 (m : (ℓ : Loc nD τ sig) → Buf (Elt Ideal) ℓ) (c : Dev nD) : Valuation τ sig (Elt Ideal) :=
  after ((RunP.ops (F := Ideal)).take 7) (launchContents m c)

/-- The whole program's buffers are the remaining 126 operations' over `S1`. -/
theorem after_S1 (m : (ℓ : Loc nD τ sig) → Buf (Elt Ideal) ℓ) (c : Dev nD) :
    after (RunP.ops (F := Ideal)) (launchContents m c) = after ((RunP.ops (F := Ideal)).drop 7) (S1 m c) := by
  unfold S1
  rw [← StableHlo.after_append, List.take_append_drop]

/-- The source row with the self-loops appended. -/
theorem S1_src (m : (ℓ : Loc nD τ sig) → Buf (Elt Ideal) ℓ) (c : Dev nD) :
    S1 m c (Proc.devRef .tc main_v3) = concatenate S532480 0 [⟨S524288, (shapeCast _ (extractStridedSlice S1x524288 ![0, 0] (m ((c.tc : Thread nD τ).loc main_arg1)) slices_S2x524288_S1x524288_0_0) shapeCasts_S1x524288_S524288)⟩, ⟨S8192, (iotaInDim S8192 32 0)⟩] concatenates_S524288_S8192_S532480_d0 := by
  unfold S1
  simp only [RunP.ops, List.take_succ_cons, List.take_zero]
  after_results_simp
  repeat (first
          | rw [reshape_result] | rw [unary_result] | rw [nullary_result] | rw [binary_result]
          | (rw [nullary_result_ne]; rotate_left; decide) | (rw [unary_result_ne]; rotate_left; decide)
          | (rw [binary_result_ne]; rotate_left; decide) | (rw [reshape_result_ne]; rotate_left; decide))
  rfl

/-- The target row with the self-loops appended. -/
theorem S1_dst (m : (ℓ : Loc nD τ sig) → Buf (Elt Ideal) ℓ) (c : Dev nD) :
    S1 m c (Proc.devRef .tc main_v6) = concatenate S532480 0 [⟨S524288, (shapeCast _ (extractStridedSlice S1x524288 ![1, 0] (m ((c.tc : Thread nD τ).loc main_arg1)) slices_S2x524288_S1x524288_1_0) shapeCasts_S1x524288_S524288)⟩, ⟨S8192, (iotaInDim S8192 32 0)⟩] concatenates_S524288_S8192_S532480_d0 := by
  unfold S1
  simp only [RunP.ops, List.take_succ_cons, List.take_zero]
  after_results_simp
  repeat (first
          | rw [reshape_result] | rw [unary_result] | rw [nullary_result] | rw [binary_result]
          | (rw [nullary_result_ne]; rotate_left; decide) | (rw [unary_result_ne]; rotate_left; decide)
          | (rw [binary_result_ne]; rotate_left; decide) | (rw [reshape_result_ne]; rotate_left; decide))
  rfl

theorem S1_arg0 (m : (ℓ : Loc nD τ sig) → Buf (Elt Ideal) ℓ) (c : Dev nD) : S1 m c (Proc.devRef .tc main_arg0) = m ((c.tc : Thread nD τ).loc main_arg0) := by
  unfold S1
  simp only [RunP.ops, List.take_succ_cons, List.take_zero]
  after_results_simp <;> rfl
theorem S1_arg1 (m : (ℓ : Loc nD τ sig) → Buf (Elt Ideal) ℓ) (c : Dev nD) : S1 m c (Proc.devRef .tc main_arg1) = m ((c.tc : Thread nD τ).loc main_arg1) := by
  unfold S1
  simp only [RunP.ops, List.take_succ_cons, List.take_zero]
  after_results_simp <;> rfl
theorem S1_arg2 (m : (ℓ : Loc nD τ sig) → Buf (Elt Ideal) ℓ) (c : Dev nD) : S1 m c (Proc.devRef .tc main_arg2) = m ((c.tc : Thread nD τ).loc main_arg2) := by
  unfold S1
  simp only [RunP.ops, List.take_succ_cons, List.take_zero]
  after_results_simp <;> rfl
theorem S1_arg3 (m : (ℓ : Loc nD τ sig) → Buf (Elt Ideal) ℓ) (c : Dev nD) : S1 m c (Proc.devRef .tc main_arg3) = m ((c.tc : Thread nD τ).loc main_arg3) := by
  unfold S1
  simp only [RunP.ops, List.take_succ_cons, List.take_zero]
  after_results_simp <;> rfl
theorem S1_arg4 (m : (ℓ : Loc nD τ sig) → Buf (Elt Ideal) ℓ) (c : Dev nD) : S1 m c (Proc.devRef .tc main_arg4) = m ((c.tc : Thread nD τ).loc main_arg4) := by
  unfold S1
  simp only [RunP.ops, List.take_succ_cons, List.take_zero]
  after_results_simp <;> rfl
theorem S1_arg5 (m : (ℓ : Loc nD τ sig) → Buf (Elt Ideal) ℓ) (c : Dev nD) : S1 m c (Proc.devRef .tc main_arg5) = m ((c.tc : Thread nD τ).loc main_arg5) := by
  unfold S1
  simp only [RunP.ops, List.take_succ_cons, List.take_zero]
  after_results_simp <;> rfl
theorem S1_arg6 (m : (ℓ : Loc nD τ sig) → Buf (Elt Ideal) ℓ) (c : Dev nD) : S1 m c (Proc.devRef .tc main_arg6) = m ((c.tc : Thread nD τ).loc main_arg6) := by
  unfold S1
  simp only [RunP.ops, List.take_succ_cons, List.take_zero]
  after_results_simp <;> rfl
theorem S1_arg7 (m : (ℓ : Loc nD τ sig) → Buf (Elt Ideal) ℓ) (c : Dev nD) : S1 m c (Proc.devRef .tc main_arg7) = m ((c.tc : Thread nD τ).loc main_arg7) := by
  unfold S1
  simp only [RunP.ops, List.take_succ_cons, List.take_zero]
  after_results_simp <;> rfl

end Cert.ReferenceIdeal.RefValue

end
-- ==== Proof.RefCasts.lean ====
/-
  The values of the reference's four inlined calls (the two degree normalisations' `where` and the two positive parts)
  are carried at their value types and stored in buffers whose types are those types by computation: the transport
  between the two is the identity. One equation per buffer and direction, each by computation.
-/
import proofs.«174856_j7146825580734_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

theorem toBuf_main_cst_3 (p1 p2 p3) (v : (⟨S_, .f32⟩ : BufTy).Contents (Elt Ideal)) :
    (TRef.of (sig := sig) (T := ⟨S_, .f32⟩) main_cst_3 p1 p2 p3).toBuf v = v := rfl
theorem ofBuf_main_cst_3 (p1 p2 p3) (v : (⟨S_, .f32⟩ : BufTy).Contents (Elt Ideal)) :
    (TRef.of (sig := sig) (T := ⟨S_, .f32⟩) main_cst_3 p1 p2 p3).ofBuf v = v := rfl
theorem toBuf_main_call0_v0 (p1 p2 p3) (v : (⟨S_, .f32⟩ : BufTy).Contents (Elt Ideal)) :
    (TRef.of (sig := sig) (T := ⟨S_, .f32⟩) main_call0_v0 p1 p2 p3).toBuf v = v := rfl
theorem ofBuf_main_call0_v0 (p1 p2 p3) (v : (⟨S_, .f32⟩ : BufTy).Contents (Elt Ideal)) :
    (TRef.of (sig := sig) (T := ⟨S_, .f32⟩) main_call0_v0 p1 p2 p3).ofBuf v = v := rfl
theorem toBuf_main_call0_v1 (p1 p2 p3) (v : (⟨S8192, .f32⟩ : BufTy).Contents (Elt Ideal)) :
    (TRef.of (sig := sig) (T := ⟨S8192, .f32⟩) main_call0_v1 p1 p2 p3).toBuf v = v := rfl
theorem ofBuf_main_call0_v1 (p1 p2 p3) (v : (⟨S8192, .f32⟩ : BufTy).Contents (Elt Ideal)) :
    (TRef.of (sig := sig) (T := ⟨S8192, .f32⟩) main_call0_v1 p1 p2 p3).ofBuf v = v := rfl
theorem toBuf_main_v13 (p1 p2 p3) (v : (⟨S8192, .i1⟩ : BufTy).Contents (Elt Ideal)) :
    (TRef.of (sig := sig) (T := ⟨S8192, .i1⟩) main_v13 p1 p2 p3).toBuf v = v := rfl
theorem ofBuf_main_v13 (p1 p2 p3) (v : (⟨S8192, .i1⟩ : BufTy).Contents (Elt Ideal)) :
    (TRef.of (sig := sig) (T := ⟨S8192, .i1⟩) main_v13 p1 p2 p3).ofBuf v = v := rfl
theorem toBuf_main_v15 (p1 p2 p3) (v : (⟨S8192, .f32⟩ : BufTy).Contents (Elt Ideal)) :
    (TRef.of (sig := sig) (T := ⟨S8192, .f32⟩) main_v15 p1 p2 p3).toBuf v = v := rfl
theorem ofBuf_main_v15 (p1 p2 p3) (v : (⟨S8192, .f32⟩ : BufTy).Contents (Elt Ideal)) :
    (TRef.of (sig := sig) (T := ⟨S8192, .f32⟩) main_v15 p1 p2 p3).ofBuf v = v := rfl
theorem toBuf_main_v16 (p1 p2 p3) (v : (⟨S8192, .f32⟩ : BufTy).Contents (Elt Ideal)) :
    (TRef.of (sig := sig) (T := ⟨S8192, .f32⟩) main_v16 p1 p2 p3).toBuf v = v := rfl
theorem ofBuf_main_v16 (p1 p2 p3) (v : (⟨S8192, .f32⟩ : BufTy).Contents (Elt Ideal)) :
    (TRef.of (sig := sig) (T := ⟨S8192, .f32⟩) main_v16 p1 p2 p3).ofBuf v = v := rfl
theorem toBuf_main_call1_cst (p1 p2 p3) (v : (⟨S_, .f32⟩ : BufTy).Contents (Elt Ideal)) :
    (TRef.of (sig := sig) (T := ⟨S_, .f32⟩) main_call1_cst p1 p2 p3).toBuf v = v := rfl
theorem ofBuf_main_call1_cst (p1 p2 p3) (v : (⟨S_, .f32⟩ : BufTy).Contents (Elt Ideal)) :
    (TRef.of (sig := sig) (T := ⟨S_, .f32⟩) main_call1_cst p1 p2 p3).ofBuf v = v := rfl
theorem toBuf_main_call1_v0 (p1 p2 p3) (v : (⟨S8192x64, .f32⟩ : BufTy).Contents (Elt Ideal)) :
    (TRef.of (sig := sig) (T := ⟨S8192x64, .f32⟩) main_call1_v0 p1 p2 p3).toBuf v = v := rfl
theorem ofBuf_main_call1_v0 (p1 p2 p3) (v : (⟨S8192x64, .f32⟩ : BufTy).Contents (Elt Ideal)) :
    (TRef.of (sig := sig) (T := ⟨S8192x64, .f32⟩) main_call1_v0 p1 p2 p3).ofBuf v = v := rfl
theorem toBuf_main_v47 (p1 p2 p3) (v : (⟨S8192x64, .f32⟩ : BufTy).Contents (Elt Ideal)) :
    (TRef.of (sig := sig) (T := ⟨S8192x64, .f32⟩) main_v47 p1 p2 p3).toBuf v = v := rfl
theorem ofBuf_main_v47 (p1 p2 p3) (v : (⟨S8192x64, .f32⟩ : BufTy).Contents (Elt Ideal)) :
    (TRef.of (sig := sig) (T := ⟨S8192x64, .f32⟩) main_v47 p1 p2 p3).ofBuf v = v := rfl
theorem toBuf_main_v48 (p1 p2 p3) (v : (⟨S8192x64, .f32⟩ : BufTy).Contents (Elt Ideal)) :
    (TRef.of (sig := sig) (T := ⟨S8192x64, .f32⟩) main_v48 p1 p2 p3).toBuf v = v := rfl
theorem ofBuf_main_v48 (p1 p2 p3) (v : (⟨S8192x64, .f32⟩ : BufTy).Contents (Elt Ideal)) :
    (TRef.of (sig := sig) (T := ⟨S8192x64, .f32⟩) main_v48 p1 p2 p3).ofBuf v = v := rfl
theorem toBuf_main_cst_14 (p1 p2 p3) (v : (⟨S_, .f32⟩ : BufTy).Contents (Elt Ideal)) :
    (TRef.of (sig := sig) (T := ⟨S_, .f32⟩) main_cst_14 p1 p2 p3).toBuf v = v := rfl
theorem ofBuf_main_cst_14 (p1 p2 p3) (v : (⟨S_, .f32⟩ : BufTy).Contents (Elt Ideal)) :
    (TRef.of (sig := sig) (T := ⟨S_, .f32⟩) main_cst_14 p1 p2 p3).ofBuf v = v := rfl
theorem toBuf_main_call2_v0 (p1 p2 p3) (v : (⟨S_, .f32⟩ : BufTy).Contents (Elt Ideal)) :
    (TRef.of (sig := sig) (T := ⟨S_, .f32⟩) main_call2_v0 p1 p2 p3).toBuf v = v := rfl
theorem ofBuf_main_call2_v0 (p1 p2 p3) (v : (⟨S_, .f32⟩ : BufTy).Contents (Elt Ideal)) :
    (TRef.of (sig := sig) (T := ⟨S_, .f32⟩) main_call2_v0 p1 p2 p3).ofBuf v = v := rfl
theorem toBuf_main_call2_v1 (p1 p2 p3) (v : (⟨S8192, .f32⟩ : BufTy).Contents (Elt Ideal)) :
    (TRef.of (sig := sig) (T := ⟨S8192, .f32⟩) main_call2_v1 p1 p2 p3).toBuf v = v := rfl
theorem ofBuf_main_call2_v1 (p1 p2 p3) (v : (⟨S8192, .f32⟩ : BufTy).Contents (Elt Ideal)) :
    (TRef.of (sig := sig) (T := ⟨S8192, .f32⟩) main_call2_v1 p1 p2 p3).ofBuf v = v := rfl
theorem toBuf_main_v55 (p1 p2 p3) (v : (⟨S8192, .i1⟩ : BufTy).Contents (Elt Ideal)) :
    (TRef.of (sig := sig) (T := ⟨S8192, .i1⟩) main_v55 p1 p2 p3).toBuf v = v := rfl
theorem ofBuf_main_v55 (p1 p2 p3) (v : (⟨S8192, .i1⟩ : BufTy).Contents (Elt Ideal)) :
    (TRef.of (sig := sig) (T := ⟨S8192, .i1⟩) main_v55 p1 p2 p3).ofBuf v = v := rfl
theorem toBuf_main_v57 (p1 p2 p3) (v : (⟨S8192, .f32⟩ : BufTy).Contents (Elt Ideal)) :
    (TRef.of (sig := sig) (T := ⟨S8192, .f32⟩) main_v57 p1 p2 p3).toBuf v = v := rfl
theorem ofBuf_main_v57 (p1 p2 p3) (v : (⟨S8192, .f32⟩ : BufTy).Contents (Elt Ideal)) :
    (TRef.of (sig := sig) (T := ⟨S8192, .f32⟩) main_v57 p1 p2 p3).ofBuf v = v := rfl
theorem toBuf_main_v58 (p1 p2 p3) (v : (⟨S8192, .f32⟩ : BufTy).Contents (Elt Ideal)) :
    (TRef.of (sig := sig) (T := ⟨S8192, .f32⟩) main_v58 p1 p2 p3).toBuf v = v := rfl
theorem ofBuf_main_v58 (p1 p2 p3) (v : (⟨S8192, .f32⟩ : BufTy).Contents (Elt Ideal)) :
    (TRef.of (sig := sig) (T := ⟨S8192, .f32⟩) main_v58 p1 p2 p3).ofBuf v = v := rfl
theorem toBuf_main_call3_cst (p1 p2 p3) (v : (⟨S_, .f32⟩ : BufTy).Contents (Elt Ideal)) :
    (TRef.of (sig := sig) (T := ⟨S_, .f32⟩) main_call3_cst p1 p2 p3).toBuf v = v := rfl
theorem ofBuf_main_call3_cst (p1 p2 p3) (v : (⟨S_, .f32⟩ : BufTy).Contents (Elt Ideal)) :
    (TRef.of (sig := sig) (T := ⟨S_, .f32⟩) main_call3_cst p1 p2 p3).ofBuf v = v := rfl
theorem toBuf_main_call3_v0 (p1 p2 p3) (v : (⟨S8192x64, .f32⟩ : BufTy).Contents (Elt Ideal)) :
    (TRef.of (sig := sig) (T := ⟨S8192x64, .f32⟩) main_call3_v0 p1 p2 p3).toBuf v = v := rfl
theorem ofBuf_main_call3_v0 (p1 p2 p3) (v : (⟨S8192x64, .f32⟩ : BufTy).Contents (Elt Ideal)) :
    (TRef.of (sig := sig) (T := ⟨S8192x64, .f32⟩) main_call3_v0 p1 p2 p3).ofBuf v = v := rfl
theorem toBuf_main_v89 (p1 p2 p3) (v : (⟨S8192x64, .f32⟩ : BufTy).Contents (Elt Ideal)) :
    (TRef.of (sig := sig) (T := ⟨S8192x64, .f32⟩) main_v89 p1 p2 p3).toBuf v = v := rfl
theorem ofBuf_main_v89 (p1 p2 p3) (v : (⟨S8192x64, .f32⟩ : BufTy).Contents (Elt Ideal)) :
    (TRef.of (sig := sig) (T := ⟨S8192x64, .f32⟩) main_v89 p1 p2 p3).ofBuf v = v := rfl
theorem toBuf_main_v90 (p1 p2 p3) (v : (⟨S8192x64, .f32⟩ : BufTy).Contents (Elt Ideal)) :
    (TRef.of (sig := sig) (T := ⟨S8192x64, .f32⟩) main_v90 p1 p2 p3).toBuf v = v := rfl
theorem ofBuf_main_v90 (p1 p2 p3) (v : (⟨S8192x64, .f32⟩ : BufTy).Contents (Elt Ideal)) :
    (TRef.of (sig := sig) (T := ⟨S8192x64, .f32⟩) main_v90 p1 p2 p3).ofBuf v = v := rfl

end Cert.ReferenceIdeal.RefValue

end
-- ==== Proof.RefTail.lean ====
/-
  The reference's last operations read at one place of the result.

  After the two graph-convolution layers the reference multiplies the node features `h` (8192 × 64) by the weights `W`
  (64 × 8192), adds the bias `b` along the columns, applies tanh, adds the transposed array and multiplies by the word of ½.
  At the place (r, c) the product is the sum over the 64 features of h[r, k] · W[k, c], the broadcast bias is b[c], and
  the transposed array is the same array read at (c, r); so the entry is (tanh (pre r c) + tanh (pre c r)) · ½, which is
  the specification's entry once the two factors are exchanged. Multiplication of extended reals is commutative with
  no finiteness condition, so the precondition on the inputs is never opened.
-/
import proofs.«174856_j7146825580734_1_alg».proof.Proof.Gen.ReferenceIdeal
import proofs.«174856_j7146825580734_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-! ## The product's operand places

The product contracts the features' second axis against the weights' first: at the result place `i` and contraction
place `q` the left operand is read at (i 0, q) and the right one at (q, i 1). -/

theorem dot_lhs0 (i : S8192x8192.Idx) (q : dot_S8192x64_S64x8192_S8192x8192_1_0_0_1_n_n.contr.Idx) :
    (dot_S8192x64_S64x8192_S8192x8192_1_0_0_1_n_n.lhsIdx i q 0).val = (i 0).val := by
  unfold DotDims.lhsIdx
  rw [dif_neg (show ¬(0 : Fin S8192x64.rank) ∈ dot_S8192x64_S64x8192_S8192x8192_1_0_0_1_n_n.lhsBatch by decide), dif_pos (show (0 : Fin S8192x64.rank) ∈ dot_S8192x64_S64x8192_S8192x8192_1_0_0_1_n_n.lhsNonContracting by decide)]
  rfl
theorem dot_lhs1 (i : S8192x8192.Idx) (q : dot_S8192x64_S64x8192_S8192x8192_1_0_0_1_n_n.contr.Idx) :
    (dot_S8192x64_S64x8192_S8192x8192_1_0_0_1_n_n.lhsIdx i q 1).val = (q ⟨0, by decide⟩).val :=
  dot_S8192x64_S64x8192_S8192x8192_1_0_0_1_n_n.lhsIdx_val_of_single rfl i q
theorem dot_rhs0 (i : S8192x8192.Idx) (q : dot_S8192x64_S64x8192_S8192x8192_1_0_0_1_n_n.contr.Idx) :
    (dot_S8192x64_S64x8192_S8192x8192_1_0_0_1_n_n.rhsIdx i q 0).val = (q ⟨0, by decide⟩).val :=
  dot_S8192x64_S64x8192_S8192x8192_1_0_0_1_n_n.rhsIdx_val_of_single rfl i q
theorem dot_rhs1 (i : S8192x8192.Idx) (q : dot_S8192x64_S64x8192_S8192x8192_1_0_0_1_n_n.contr.Idx) :
    (dot_S8192x64_S64x8192_S8192x8192_1_0_0_1_n_n.rhsIdx i q 1).val = (i 1).val := by
  unfold DotDims.rhsIdx
  rw [dif_neg (show ¬(1 : Fin S64x8192.rank) ∈ dot_S8192x64_S64x8192_S8192x8192_1_0_0_1_n_n.rhsBatch by decide), dif_pos (show (1 : Fin S64x8192.rank) ∈ dot_S8192x64_S64x8192_S8192x8192_1_0_0_1_n_n.rhsNonContracting by decide)]
  rfl

/-- The product at (r, c): row r of the features against column c of the weights. -/
theorem dot_at (h : FVec Ideal S8192x64 .f32) (W : FVec Ideal S64x8192 .f32) (r c : Fin 8192) :
    Host.dotGeneral (F := Ideal) dot_S8192x64_S64x8192_S8192x8192_1_0_0_1_n_n none h W (ix2 r c) = ∑ k : Fin 64, h (ix2 r k) * W (ix2 k c) := by
  simp only [Host.dotGeneral]
  rw [Ideal.dotGeneral_apply, ← Equiv.sum_comp (contrEquiv1 dot_S8192x64_S64x8192_S8192x8192_1_0_0_1_n_n 64 rfl rfl).symm]
  refine Finset.sum_congr rfl fun k _ => ?_
  have hk := contrEquiv1_symm_val dot_S8192x64_S64x8192_S8192x8192_1_0_0_1_n_n 64 rfl rfl k
  have el : dot_S8192x64_S64x8192_S8192x8192_1_0_0_1_n_n.lhsIdx (ix2 r c) ((contrEquiv1 dot_S8192x64_S64x8192_S8192x8192_1_0_0_1_n_n 64 rfl rfl).symm k) = ix2 r k := funext fun a => Fin.ext (by
    match a with
    | ⟨0, _⟩ => exact dot_lhs0 _ _
    | ⟨1, _⟩ => exact (dot_lhs1 _ _).trans hk)
  have er : dot_S8192x64_S64x8192_S8192x8192_1_0_0_1_n_n.rhsIdx (ix2 r c) ((contrEquiv1 dot_S8192x64_S64x8192_S8192x8192_1_0_0_1_n_n 64 rfl rfl).symm k) = ix2 k c := funext fun a => Fin.ext (by
    match a with
    | ⟨0, _⟩ => exact (dot_rhs0 _ _).trans hk
    | ⟨1, _⟩ => exact dot_rhs1 _ _)
  rw [el, er]

/-- The bias, laid along the columns of the result: at (r, c) it is b[c]. -/
theorem bias_at (b : FVec Ideal S8192 .f32) (r c : Fin 8192) :
    (broadcastInDim S8192x8192 ![0, 1] bcast_S1x8192_S8192x8192_0_1 (broadcastInDim S1x8192 ![1] bcast_S8192_S1x8192_1 b)) (ix2 r c) = b (ix1 c) := by
  generalize hy : broadcastInDim S1x8192 ![1] bcast_S8192_S1x8192_1 b = y
  rw [broadcastInDim_apply _ bcast_S1x8192_S8192x8192_0_1 y (ix2 r c) (ix2 (0 : Fin 1) c) (fun a => match a with
    | ⟨0, _⟩ => by show 0 = if (1 : Nat) = 1 then 0 else r.val; rw [if_pos rfl]
    | ⟨1, _⟩ => by show c.val = if (8192 : Nat) = 1 then 0 else c.val; rw [if_neg (by decide)])]
  subst hy
  exact broadcastInDim_apply _ bcast_S8192_S1x8192_1 b (ix2 (0 : Fin 1) c) (ix1 c) (fun a => match a with
    | ⟨0, _⟩ => by show c.val = if (8192 : Nat) = 1 then 0 else c.val; rw [if_neg (by decide)])

/-- The pre-activation array at (r, c) is the specification's `pre`. -/
theorem pre_at (h : FVec Ideal S8192x64 .f32) (W : FVec Ideal S64x8192 .f32) (b : FVec Ideal S8192 .f32) (r c : Fin 8192) :
    (addf (Host.dotGeneral (F := Ideal) dot_S8192x64_S64x8192_S8192x8192_1_0_0_1_n_n none h W) (broadcastInDim S8192x8192 ![0, 1] bcast_S1x8192_S8192x8192_0_1 (broadcastInDim S1x8192 ![1] bcast_S8192_S1x8192_1 b))) (ix2 r c) = Cert.SymTanh.pre h W b r c := by
  show Host.dotGeneral (F := Ideal) dot_S8192x64_S64x8192_S8192x8192_1_0_0_1_n_n none h W (ix2 r c) + (broadcastInDim S8192x8192 ![0, 1] bcast_S1x8192_S8192x8192_0_1 (broadcastInDim S1x8192 ![1] bcast_S8192_S1x8192_1 b)) (ix2 r c) = _
  rw [dot_at, bias_at]
  rfl

/-- tanh, add the transpose, halve: the reference's last operations over any pre-activation array `P`, at (r, c). -/
theorem sym_at (P : FVec Ideal S8192x8192 .f32) (r c : Fin 8192) :
    mulf (addf (Host.tanh (F := Ideal) P) (transpose S8192x8192 [1, 0] (Host.tanh (F := Ideal) P) transposes_S8192x8192_S8192x8192_1_0))
        (broadcastInDim S8192x8192 ![] bcast_S_S8192x8192 (constant (F := Ideal) S_ .f32 0x3F000000#32)) (ix2 r c)
      = Ideal.ofBits .f32 0x3F000000#32 * (Ideal.tanh (P (ix2 r c)) + Ideal.tanh (P (ix2 c r))) := by
  show (Host.tanh (F := Ideal) P (ix2 r c) + transpose S8192x8192 [1, 0] (Host.tanh (F := Ideal) P) transposes_S8192x8192_S8192x8192_1_0 (ix2 r c))
      * broadcastInDim S8192x8192 ![] bcast_S_S8192x8192 (constant (F := Ideal) S_ .f32 0x3F000000#32) (ix2 r c) = _
  rw [transpose_apply [1, 0] (Host.tanh (F := Ideal) P) transposes_S8192x8192_S8192x8192_1_0 (ix2 r c) (ix2 c r) (fun a => match a with
    | ⟨0, _⟩ => rfl
    | ⟨1, _⟩ => rfl)]
  rw [broadcastInDim_apply _ bcast_S_S8192x8192 (constant (F := Ideal) S_ .f32 0x3F000000#32) (ix2 r c) ix0 (fun a => a.elim0)]
  rw [mul_comm]
  rfl

/-- The reference's last operations are the specification's function of the node features, the weights and the bias. -/
theorem tail_eq (h : FVec Ideal S8192x64 .f32) (W : FVec Ideal S64x8192 .f32) (b : FVec Ideal S8192 .f32) :
    mulf (addf (Host.tanh (F := Ideal) (addf (Host.dotGeneral (F := Ideal) dot_S8192x64_S64x8192_S8192x8192_1_0_0_1_n_n none h W) (broadcastInDim S8192x8192 ![0, 1] bcast_S1x8192_S8192x8192_0_1 (broadcastInDim S1x8192 ![1] bcast_S8192_S1x8192_1 b)))) (transpose S8192x8192 [1, 0] (Host.tanh (F := Ideal) (addf (Host.dotGeneral (F := Ideal) dot_S8192x64_S64x8192_S8192x8192_1_0_0_1_n_n none h W) (broadcastInDim S8192x8192 ![0, 1] bcast_S1x8192_S8192x8192_0_1 (broadcastInDim S1x8192 ![1] bcast_S8192_S1x8192_1 b)))) transposes_S8192x8192_S8192x8192_1_0))
        (broadcastInDim S8192x8192 ![] bcast_S_S8192x8192 (constant (F := Ideal) S_ .f32 0x3F000000#32))
      = Cert.SymTanh.out h W b := by
  funext i
  obtain ⟨r, c, rfl⟩ : ∃ (r c : Fin 8192), i = ix2 r c := ⟨i 0, i 1, eq_ix2 i⟩
  rw [sym_at, pre_at, pre_at]
  rfl

end Cert.ReferenceIdeal.RefValue

end
-- ==== Proof.RefRun.lean ====
/-
  The reference program's run, with its result named by the specification.

  The reference computes the node features by two graph-convolution layers on the host — for each layer: the features
  times a weight array, gathered along the edges (with one self-loop per node appended to the edge list), scaled by the
  product of the two endpoints' inverse square-root degrees, summed into the target nodes, plus a bias, then the positive
  part — and then applies its last ten operations to the features, the last weights and the last bias. `feat` is the
  composed term of the operations up to the second positive part, as one function of the six arrays it reads; the last
  ten operations are the specification's `out` of (`feat`, weights, bias) by `tail_eq`. The graph part is never opened:
  it is carried as one function of its arguments. The program is read in three stretches — the seven operations that
  build the two index rows, the 116 up to the features, the last ten — so that each stretch's composed term is small.
-/
import proofs.«174856_j7146825580734_1_alg».proof.Proof.RefEdges
import proofs.«174856_j7146825580734_1_alg».proof.Proof.RefCasts
import proofs.«174856_j7146825580734_1_alg».proof.Proof.RefTail

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The node features after the two graph-convolution layers, as one pure function of the six arrays they depend on
    (node inputs `x`, edge list `e`, and each layer's weights and bias): the composed term of the reference's host
    operations up to and including the second positive part, in program order. -/
def feat (x : (⟨S8192x512, .f32⟩ : BufTy).Contents (Elt Ideal)) (e : (⟨S2x524288, .i32⟩ : BufTy).Contents (Elt Ideal))
    (W1 : (⟨S512x64, .f32⟩ : BufTy).Contents (Elt Ideal)) (b1 : (⟨S64, .f32⟩ : BufTy).Contents (Elt Ideal)) (W2 : (⟨S64x64, .f32⟩ : BufTy).Contents (Elt Ideal)) (b2 : (⟨S64, .f32⟩ : BufTy).Contents (Elt Ideal)) :
    (⟨S8192x64, .f32⟩ : BufTy).Contents (Elt Ideal) :=
  maximumf (addf (Host.scatterAdd (F := Ideal) scatter_S8192x64_S532480x1_S532480x64_1_0_0_1 (broadcastInDim S8192x64 ![] bcast_S_S8192x64 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (mulf (Host.gather gather_S8192x64_S532480x1_S532480x64_1_0_n_n_0_1_164 (Host.dotGeneral (F := Ideal) (φ₁ := .f32) (φ₂ := .f32) dot_S8192x64_S64x64_S8192x64_1_0_0_1_n_n none (maximumf (addf (Host.scatterAdd (F := Ideal) scatter_S8192x64_S532480x1_S532480x64_1_0_0_1 (broadcastInDim S8192x64 ![] bcast_S_S8192x64 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (mulf (Host.gather gather_S8192x64_S532480x1_S532480x64_1_0_n_n_0_1_164 (Host.dotGeneral (F := Ideal) (φ₁ := .f32) (φ₂ := .f32) dot_S8192x512_S512x64_S8192x64_1_0_0_1_n_n none x W1) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (broadcastInDim S532480x64 ![0, 1] bcast_S532480x1_S532480x64_0_1 (broadcastInDim S532480x1 ![0] bcast_S532480_S532480x1_0 (mulf (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0))))))))) (broadcastInDim S8192x64 ![0, 1] bcast_S1x64_S8192x64_0_1 (broadcastInDim S1x64 ![1] bcast_S64_S1x64_1 b1))) (broadcastInDim S8192x64 ![] bcast_S_S8192x64 (constant (F := Ideal) S_ .f32 0x00000000#32))) W2) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (broadcastInDim S532480x64 ![0, 1] bcast_S532480x1_S532480x64_0_1 (broadcastInDim S532480x1 ![0] bcast_S532480_S532480x1_0 (mulf (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![0, 0] e slices_S2x524288_S1x524288_0_0) shapeCasts_S1x524288_S524288)⟩, ⟨S8192, (iotaInDim S8192 32 0)⟩] concatenates_S524288_S8192_S532480_d0)))) (Host.gather gather_S8192_S532480x1_S532480_n_0_n_n_0_1_1 (select (cmpf (F := Ideal) .ogt (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0x00000000#32))) (Host.powf (F := Ideal) (Host.scatterAdd (F := Ideal) scatter_S8192_S532480x1_S532480_n_0_0_1 (broadcastInDim S8192 ![] bcast_S_S8192 (constant (F := Ideal) S_ .f32 0x00000000#32)) (broadcastInDim S532480x1 ![0] bcast_S532480_S532480x1_0 (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0)) (broadcastInDim S532480 ![] bcast_S_S532480 (constant (F := Ideal) S_ .f32 0x3F800000#32))) (broadcastInDim S8192 ![] bcast_S_S8192 (constant (F := Ideal) S_ .f32 0xBF000000#32))) (broadcastInDim S8192 ![] bcast_S_S8192 (id (constant (F := Ideal) S_ .f32 0x00000000#32)))) (broadcastInDim S532480x1 ![0] bcast_S532480_S532480x1_0 (select (cmpi .slt (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 0#32))) (addi (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0) (broadcastInDim S532480 ![] bcast_S_S532480 (constantI S_ 32 8192#32))) (concatenate S532480 0 [⟨S524288, (shapeCast _ (extractStridedSlice S1x524288 ![1, 0] e slices_S2x524288_S1x524288_1_0) shapeCasts_S1x524288_S524288)⟩, ⟨S8192, (iotaInDim S8192 32 0)⟩] concatenates_S524288_S8192_S532480_d0))))))))) (broadcastInDim S8192x64 ![0, 1] bcast_S1x64_S8192x64_0_1 (broadcastInDim S1x64 ![1] bcast_S64_S1x64_1 b2))) (broadcastInDim S8192x64 ![] bcast_S_S8192x64 (constant (F := Ideal) S_ .f32 0x00000000#32))

/-- The buffers after the first 123 operations (everything up to the second positive part). -/
def S2 (m : (ℓ : Loc nD τ sig) → Buf (Elt Ideal) ℓ) (c : Dev nD) : Valuation τ sig (Elt Ideal) :=
  after (((RunP.ops (F := Ideal)).drop 7).take 116) (S1 m c)

/-- The whole program's buffers are the last ten operations' over `S2`. -/
theorem after_S2 (m : (ℓ : Loc nD τ sig) → Buf (Elt Ideal) ℓ) (c : Dev nD) :
    after (RunP.ops (F := Ideal)) (launchContents m c) = after (((RunP.ops (F := Ideal)).drop 7).drop 116) (S2 m c) := by
  rw [after_S1]
  unfold S2
  rw [← StableHlo.after_append, List.take_append_drop]

set_option maxHeartbeats 53200000 in
/-- After the 123 operations the features' buffer holds `feat` of the six arguments. -/
theorem S2_feat (m : (ℓ : Loc nD τ sig) → Buf (Elt Ideal) ℓ) (c : Dev nD) :
    S2 m c (Proc.devRef .tc main_v90) = feat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold S2
  simp only [RunP.ops, List.drop_succ_cons, List.drop_zero, List.take_succ_cons, List.take_zero]
  after_results_simp
  simp only [toBuf_main_cst_3, ofBuf_main_cst_3, toBuf_main_call0_v0, ofBuf_main_call0_v0, toBuf_main_call0_v1, ofBuf_main_call0_v1, toBuf_main_v13, ofBuf_main_v13, toBuf_main_v15, ofBuf_main_v15, toBuf_main_v16, ofBuf_main_v16, toBuf_main_call1_cst, ofBuf_main_call1_cst, toBuf_main_call1_v0, ofBuf_main_call1_v0, toBuf_main_v47, ofBuf_main_v47, toBuf_main_v48, ofBuf_main_v48, toBuf_main_cst_14, ofBuf_main_cst_14, toBuf_main_call2_v0, ofBuf_main_call2_v0, toBuf_main_call2_v1, ofBuf_main_call2_v1, toBuf_main_v55, ofBuf_main_v55, toBuf_main_v57, ofBuf_main_v57, toBuf_main_v58, ofBuf_main_v58, toBuf_main_call3_cst, ofBuf_main_call3_cst, toBuf_main_call3_v0, ofBuf_main_call3_v0, toBuf_main_v89, ofBuf_main_v89, toBuf_main_v90, ofBuf_main_v90, S1_src, S1_dst, S1_arg0, S1_arg1, S1_arg2, S1_arg3, S1_arg4, S1_arg5]
  rfl

set_option maxHeartbeats 53200000 in
theorem S2_arg6 (m : (ℓ : Loc nD τ sig) → Buf (Elt Ideal) ℓ) (c : Dev nD) : S2 m c (Proc.devRef .tc main_arg6) = m ((c.tc : Thread nD τ).loc main_arg6) := by
  unfold S2
  simp only [RunP.ops, List.drop_succ_cons, List.drop_zero, List.take_succ_cons, List.take_zero]
  after_results_simp
  exact S1_arg6 m c

set_option maxHeartbeats 53200000 in
theorem S2_arg7 (m : (ℓ : Loc nD τ sig) → Buf (Elt Ideal) ℓ) (c : Dev nD) : S2 m c (Proc.devRef .tc main_arg7) = m ((c.tc : Thread nD τ).loc main_arg7) := by
  unfold S2
  simp only [RunP.ops, List.drop_succ_cons, List.drop_zero, List.take_succ_cons, List.take_zero]
  after_results_simp
  exact S1_arg7 m c

/-- The result buffer after the whole program is the specification's `out` of the features, the last weights and bias. -/
theorem v99_eq (m : (ℓ : Loc nD τ sig) → Buf (Elt Ideal) ℓ) (c : Dev nD) :
    after (RunP.ops (F := Ideal)) (launchContents m c) (Proc.devRef .tc main_v99)
      = Cert.SymTanh.out (feat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) := by
  rw [after_S2]
  simp only [RunP.ops, List.drop_succ_cons, List.drop_zero, List.take_succ_cons, List.take_zero]
  after_results_simp
  rw [S2_feat, S2_arg6, S2_arg7]
  exact tail_eq _ _ _

set_option maxHeartbeats 53200000 in
/-- On every device, from any memory with zero counters: every weakly fair execution of the reference terminates with
    its result at the specification's `out` of the node features, the last weights and the last bias, and its eight
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v99) = Cert.SymTanh.out (feat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v99).trans (v99_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (RunP.run_after (F := Ideal) m ρ)

end Cert.ReferenceIdeal.RefValue

end
-- ==== Proof.lean ====
/-
  A two-layer graph convolution followed by a symmetrised tanh layer: the tiled kernel against the
  plain reference, over the extended reals.

  Both programs compute the node features `h` (8192 × 64) on the host by the same operations — two
  layers of: a linear map, a gather along the edge list (one self-loop per node appended), a scaling
  by the endpoints' inverse square-root degrees, a scatter-add into the target nodes, a bias, a
  rectifier. The reference then forms T = tanh (h · W + b) (8192 × 8192) and returns (T + Tᵀ) · ½. The
  kernel never forms T: on an 8 × 8 grid of 1024 × 1024 tiles, at tile (i, j) it reads row blocks i
  and j of `h`, column blocks j and i of `W`, blocks j and i of `b`, computes
  ½ · (tanh (h_i · W_j + b_j) + (tanh (h_j · W_i + b_i))ᵀ) and writes that tile.

  Entry (r, c) of either result is ½ · (tanh ((∑ k, h[r,k] · W[k,c]) + b[c]) + tanh ((∑ k, h[c,k] · W[k,r]) + b[r]))
  (the specification module): for the reference by reading its last ten operations at an index, the
  product by ½ commuted; for the kernel by reading the body's one stored value at an index of a tile
  and placing the 64 tiles, which cover the array, the transposed term of tile (i, j) at (p, q) being
  the activation at (j·1024 + q, i·1024 + p). The two programs' feature arrays are one composed term
  of the arguments, so they are never opened. No step needs finiteness of the inputs: only
  commutativity of the product is used.

  The frames: the reference is a host program, and its run leaves the arguments untouched; the kernel
  program's frame (at the word level and at the ideal instance alike) is the launch of a kernel whose
  six input windows stand on three arrays, each array's ownership split in halves between its two
  windows. The idealisation rewrote nothing, so its conjunct is trivial.
-/
import proofs.«174856_j7146825580734_1_alg».proof.Defs
import proofs.«174856_j7146825580734_1_alg».proof.Proof.Gen.Kernel
import proofs.«174856_j7146825580734_1_alg».proof.Proof.Gen.KernelIdeal
import proofs.«174856_j7146825580734_1_alg».proof.Proof.Gen.ReferenceIdeal
import proofs.«174856_j7146825580734_1_alg».proof.Proof.Gen.Pre_finite_inputs
import proofs.«174856_j7146825580734_1_alg».proof.Proof.RunK
import proofs.«174856_j7146825580734_1_alg».proof.Proof.RunKI
import proofs.«174856_j7146825580734_1_alg».proof.Proof.KernelRun
import proofs.«174856_j7146825580734_1_alg».proof.Proof.KernelHost
import proofs.«174856_j7146825580734_1_alg».proof.Proof.RefRun
import Idealize.ShloMosaic.Adequacy
import Idealize.ShloMosaic.Init

noncomputable section

namespace Cert.Proof

open Idealize.ShloMosaic Idealize.ShloMosaic.TcCoe Idealize.SL.Sem

/-- The two programs' feature terms are one function: the same host operations over each program's
    own copy of the same dimension records. -/
theorem feat_eq (x : (⟨Cert.KernelIdeal.S8192x512, .f32⟩ : BufTy).Contents (Elt Ideal)) (e : (⟨Cert.KernelIdeal.S2x524288, .i32⟩ : BufTy).Contents (Elt Ideal))
    (W1 : (⟨Cert.KernelIdeal.S512x64, .f32⟩ : BufTy).Contents (Elt Ideal)) (b1 : (⟨Cert.KernelIdeal.S64, .f32⟩ : BufTy).Contents (Elt Ideal))
    (W2 : (⟨Cert.KernelIdeal.S64x64, .f32⟩ : BufTy).Contents (Elt Ideal)) (b2 : (⟨Cert.KernelIdeal.S64, .f32⟩ : BufTy).Contents (Elt Ideal)) :
    Cert.KernelIdeal.KHost.featK x e W1 b1 W2 b2 = Cert.ReferenceIdeal.RefValue.feat x e W1 b1 W2 b2 := rfl

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

theorem preserves : Cert.preserves_Kernel_KernelIdeal := trivial

/-- From memories that agree on the arguments both programs end with the specification's array of
    (the features, the last weights, the last bias): the kernel by its tiles, the reference by its last
    operations, the features the same term on both sides. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.SymTanh.out (Cert.KernelIdeal.KHost.featK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨((h c).1).trans ?_, (h c).2⟩) (Cert.KernelIdeal.KRun.kernel_run m ρ)
    rw [Cert.KernelIdeal.KHost.V_feat]
  · refine (θ_run Cert.ReferenceIdeal.defs _ _).mono (fun r h c => ⟨((h c).1).trans ?_, (h c).2⟩) (Cert.ReferenceIdeal.RefValue.run m' ρ')
    obtain ⟨h0, h1, h2, h3, h4, h5, h6, h7⟩ := hagree c
    rw [h0, h1, h2, h3, h4, h5, h6, h7, ← feat_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
